-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x48 : Shape := ⟨2, ![100000, 48]⟩
abbrev S2x1600000 : Shape := ⟨2, ![2, 1600000]⟩
abbrev S1600000x1 : Shape := ⟨2, ![1600000, 1]⟩
abbrev S48x128 : Shape := ⟨2, ![48, 128]⟩
abbrev S128x128 : Shape := ⟨2, ![128, 128]⟩
abbrev S_ : Shape := ⟨0, ![]⟩

class Facts : Prop where
  bcast_S_S100000x48 : S_.BroadcastsInDim S100000x48 (![] : Fin 0 → Fin S100000x48.rank)
  reducesTo_S100000x48_S_d0_1 : S100000x48.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S48x128 : S_.BroadcastsInDim S48x128 (![] : Fin 0 → Fin S48x128.rank)
  reducesTo_S48x128_S_d0_1 : S48x128.ReducesTo [0, 1] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_arg9 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  main_v43

def fn_part1 {F : FTy → Type} [FloatOps F] (main_arg5 : FVec F S128x128 .f32) (main_arg6 : FVec F S128x128 .f32) (main_arg7 : FVec F S128x128 .f32) (main_arg8 : FVec F S128x128 .f32) (main_arg9 : FVec F S128x128 .f32) (main_v13 : IVec S_ 1) (main_v16 : IVec S48x128 1) : IVec S_ 1 :=
  let main_c_5 : IVec S_ 1 := constantI S_ 1 1#1
  let main_v17 : IVec S_ 1 := (fun x v => Host.reduce IntOp.andi x v reducesTo_S48x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x48 .f32) (main_arg1 : IVec S2x1600000 32) (main_arg2 : FVec F S1600000x1 .f32) (main_arg3 : FVec F S48x128 .f32) (main_arg4 : FVec F S48x128 .f32) (main_arg5 : FVec F S128x128 .f32) (main_arg6 : FVec F S128x128 .f32) (main_arg7 : FVec F S128x128 .f32) (main_arg8 : FVec F S128x128 .f32) (main_arg9 : FVec F S128x128 .f32) : IVec S_ 1 :=
  let main_v0 : FVec F S100000x48 .f32 := Host.absf main_arg0
  let main_cst : FVec F S_ .f32 := constant S_ .f32 0x7F800000#32
  let main_v1 : FVec F S100000x48 .f32 := broadcastInDim S100000x48 ![] bcast_S_S100000x48 main_cst
  let main_v2 : IVec S100000x48 1 := cmpf .olt main_v0 main_v1
  let main_c : IVec S_ 1 := constantI S_ 1 1#1
  let main_v3 : IVec S_ 1 := (fun x v => Host.reduce IntOp.andi x v reducesTo_S100000x48_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S48x128 .f32 := Host.absf main_arg3
  let main_cst_2 : FVec F S_ .f32 := constant S_ .f32 0x7F800000#32
  let main_v10 : FVec F S48x128 .f32 := broadcastInDim S48x128 ![] bcast_S_S48x128 main_cst_2
  let main_v11 : IVec S48x128 1 := cmpf .olt main_v9 main_v10
  let main_c_3 : IVec S_ 1 := constantI S_ 1 1#1
  let main_v12 : IVec S_ 1 := (fun x v => Host.reduce IntOp.andi x v reducesTo_S48x128_S_d0_1 h_S_) main_v11 main_c_3
  let main_v13 : IVec S_ 1 := andi main_v8 main_v12
  let main_v14 : FVec F S48x128 .f32 := Host.absf main_arg4
  let main_cst_4 : FVec F S_ .f32 := constant S_ .f32 0x7F800000#32
  let main_v15 : FVec F S48x128 .f32 := broadcastInDim S48x128 ![] bcast_S_S48x128 main_cst_4
  let main_v16 : IVec S48x128 1 := cmpf .olt main_v14 main_v15
  fn_part1 (F := F) main_arg5 main_arg6 main_arg7 main_arg8 main_arg9 main_v13 main_v16
-- ==== Kernel.lean ====
abbrev S100000x48 : Shape := ⟨2, ![100000, 48]⟩
abbrev S2x1600000 : Shape := ⟨2, ![2, 1600000]⟩
abbrev S1600000x1 : Shape := ⟨2, ![1600000, 1]⟩
abbrev S48x128 : Shape := ⟨2, ![48, 128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x48 : Shape := ⟨2, ![1600000, 48]⟩
abbrev S100000x128 : Shape := ⟨2, ![100000, 128]⟩
abbrev S5000x48 : Shape := ⟨2, ![5000, 48]⟩
abbrev S5000x128 : Shape := ⟨2, ![5000, 128]⟩
abbrev S1600000x128 : Shape := ⟨2, ![1600000, 128]⟩

abbrev nBuf : Space → Nat
  | .hbm => 98
  | .vmem => 43
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S1600000x1, .f32⟩
  | .hbm, ⟨3, _⟩ => ⟨S48x128, .f32⟩
  | .hbm, ⟨4, _⟩ => ⟨S48x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x48, .f32⟩
  | .hbm, ⟨23, _⟩ => ⟨S_, .f32⟩
  | .hbm, ⟨24, _⟩ => ⟨S100000x48, .f32⟩
  | .hbm, ⟨25, _⟩ => ⟨S1600000x1, .i32⟩
  | .hbm, ⟨26, _⟩ => ⟨S100000x48, .f32⟩
  | .hbm, ⟨27, _⟩ => ⟨S100000x128, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S100000x128, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x128, .f32⟩
  | .hbm, ⟨93, _⟩ => ⟨S_, .f32⟩
  | .hbm, ⟨94, _⟩ => ⟨S100000x128, .f32⟩
  | .hbm, ⟨95, _⟩ => ⟨S1600000x1, .i32⟩
  | .hbm, ⟨96, _⟩ => ⟨S100000x128, .f32⟩
  | .hbm, ⟨97, _⟩ => ⟨S100000x128, .f32⟩
  | .local _ .vmem, ⟨0, _⟩ => ⟨S5000x48, .f32⟩
  | .local _ .vmem, ⟨1, _⟩ => ⟨S5000x48, .f32⟩
  | .local _ .vmem, ⟨2, _⟩ => ⟨S5000x48, .f32⟩
  | .local _ .vmem, ⟨3, _⟩ => ⟨S5000x48, .f32⟩
  | .local _ .vmem, ⟨4, _⟩ => ⟨S48x128, .f32⟩
  | .local _ .vmem, ⟨5, _⟩ => ⟨S48x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S128x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S5000x128, .f32⟩
  | .local _ .vmem, ⟨42, _⟩ => ⟨S5000x128, .f32⟩
  | _, _ => ⟨S100000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_15 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem3_1 : DmaSem sig := 42

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S48x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S48x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x48 : S_.BroadcastsInDim S100000x48 (![] : Fin 0 → Fin S100000x48.rank)
  inb_S5000x48_S5000x48_0_0 : ∀ a, (![0, 0] : Fin 2 → Nat) a + S5000x48.size a ≤ S5000x48.size a
  h_S5000x48 : 0 < S5000x48.numel
  shapeCasts_S5000x48_S5000x48 : S5000x48.ShapeCasts S5000x48
  bitsLt_bf16_f32 : FTy.bits .bf16 < FTy.bits .f32
  inb_S48x128_S48x128_0_0 : ∀ a, (![0, 0] : Fin 2 → Nat) a + S48x128.size a ≤ S48x128.size a
  h_S48x128 : 0 < S48x128.numel
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S5000x48_S48x128_S5000x128_1_0_0_1_n_n_wf : DotDims.WF S5000x48 S48x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x48.size a ≤ S100000x48.size a
  hwx0_0 : ∀ i : grid0.Coords, EltTy.bits .f32 = 32 ∨ (Rect.block (s := S100000x48) S5000x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x48.size a ≤ S100000x48.size a
  hwx0_1 : ∀ i : grid0.Coords, EltTy.bits .f32 = 32 ∨ (Rect.block (s := S100000x48) S5000x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S48x128.size a ≤ S48x128.size a
  hwx0_2 : ∀ i : grid0.Coords, EltTy.bits .f32 = 32 ∨ (Rect.block (s := S48x128) S48x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S48x128.size a ≤ S48x128.size a
  hwx0_3 : ∀ i : grid0.Coords, EltTy.bits .f32 = 32 ∨ (Rect.block (s := S48x128) S48x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)

variable [Facts₀]

def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S5000x48_S48x128_S5000x128_1_0_0_1_n_n : DotDims S5000x48 S48x128 S5000x128 where
  lhsContracting := [1]
  rhsContracting := [0]
  lhsNonContracting := [0]
  rhsNonContracting := [1]
  lhsBatch := []
  rhsBatch := []
  wf := dot_S5000x48_S48x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S48x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S48x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v25) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v36) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v47) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v58) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v58) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg9) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v69) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x48 : Shape := ⟨2, ![100000, 48]⟩
abbrev S2x1600000 : Shape := ⟨2, ![2, 1600000]⟩
abbrev S1600000x1 : Shape := ⟨2, ![1600000, 1]⟩
abbrev S48x128 : Shape := ⟨2, ![48, 128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x48 : Shape := ⟨2, ![1600000, 48]⟩
abbrev S100000x128 : Shape := ⟨2, ![100000, 128]⟩
abbrev S1600000x128 : Shape := ⟨2, ![1600000, 128]⟩

abbrev nBuf : Space → Nat
  | .hbm => 129
  | .vmem => 0
  | .smem => 0
  | _ => 0

abbrev hbmTy0_0 (i : Nat) : BufTy := match i % 128 with
  | 0 => ⟨S100000x48, .f32⟩
  | 1 => ⟨S2x1600000, .i32⟩
  | 2 => ⟨S1600000x1, .f32⟩
  | 3 => ⟨S48x128, .f32⟩
  | 4 => ⟨S48x128, .f32⟩
  | 5 => ⟨S128x128, .f32⟩
  | 6 => ⟨S128x128, .f32⟩
  | 7 => ⟨S128x128, .f32⟩
  | 8 => ⟨S128x128, .f32⟩
  | 9 => ⟨S128x128, .f32⟩
  | 10 => ⟨S1x1600000, .i32⟩
  | 11 => ⟨S1600000, .i32⟩
  | 12 => ⟨S1x1600000, .i32⟩
  | 13 => ⟨S1600000, .i32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x48, .f32⟩
  | 23 => ⟨S_, .f32⟩
  | 24 => ⟨S100000x48, .f32⟩
  | 25 => ⟨S1600000x1, .i32⟩
  | 26 => ⟨S100000x48, .f32⟩
  | 27 => ⟨S100000x48, .f32⟩
  | 28 => ⟨S100000x128, .f32⟩
  | 29 => ⟨S_, .f32⟩
  | 30 => ⟨S100000x128, .f32⟩
  | 31 => ⟨S100000x128, .f32⟩
  | 32 => ⟨S100000x128, .f32⟩
  | 33 => ⟨S100000x128, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S_, .f32⟩
  | 44 => ⟨S100000x128, .f32⟩
  | 45 => ⟨S1600000x1, .i32⟩
  | 46 => ⟨S100000x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S100000x128, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x128, .f32⟩
  | 62 => ⟨S_, .f32⟩
  | 63 => ⟨S100000x128, .f32⟩
  | 64 => ⟨S1600000x1, .i32⟩
  | 65 => ⟨S100000x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x128, .f32⟩
  | 81 => ⟨S_, .f32⟩
  | 82 => ⟨S100000x128, .f32⟩
  | 83 => ⟨S1600000x1, .i32⟩
  | 84 => ⟨S100000x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S100000x128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S_, .f32⟩
  | 101 => ⟨S100000x128, .f32⟩
  | 102 => ⟨S1600000x1, .i32⟩
  | 103 => ⟨S100000x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S100000x128, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x128, .f32⟩
  | 119 => ⟨S_, .f32⟩
  | 120 => ⟨S100000x128, .f32⟩
  | 121 => ⟨S1600000x1, .i32⟩
  | 122 => ⟨S100000x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x48, .f32⟩

abbrev hbmTy0_1 (i : Nat) : BufTy := match i % 128 with
  | 0 => ⟨S100000x128, .f32⟩
  | _ => ⟨S100000x48, .f32⟩

abbrev hbmTy (i : Nat) : BufTy := match i / 128 with
  | 0 => hbmTy0_0 i
  | 1 => hbmTy0_1 i
  | _ => ⟨S100000x48, .f32⟩

abbrev bufTy : (tb : Table) → Fin (tcTables nBuf tb) → BufTy
  | .hbm, ⟨i, _⟩ => hbmTy i
  | _, _ => ⟨S100000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call1_cst : Ref sig .tc := ⟨.hbm, 49, rfl⟩
abbrev main_call1_v0 : Ref sig .tc := ⟨.hbm, 50, rfl⟩
abbrev main_v31 : Ref sig .tc := ⟨.hbm, 51, rfl⟩
abbrev main_v32 : Ref sig .tc := ⟨.hbm, 52, rfl⟩
abbrev main_c_4 : Ref sig .tc := ⟨.hbm, 53, rfl⟩
abbrev main_v33 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call2_cst : Ref sig .tc := ⟨.hbm, 68, rfl⟩
abbrev main_call2_v0 : Ref sig .tc := ⟨.hbm, 69, rfl⟩
abbrev main_v45 : Ref sig .tc := ⟨.hbm, 70, rfl⟩
abbrev main_v46 : Ref sig .tc := ⟨.hbm, 71, rfl⟩
abbrev main_c_7 : Ref sig .tc := ⟨.hbm, 72, rfl⟩
abbrev main_v47 : Ref sig .tc := ⟨.hbm, 73, rfl⟩
abbrev main_v48 : Ref sig .tc := ⟨.hbm, 74, rfl⟩
abbrev main_c_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_9 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call3_cst : Ref sig .tc := ⟨.hbm, 87, rfl⟩
abbrev main_call3_v0 : Ref sig .tc := ⟨.hbm, 88, rfl⟩
abbrev main_v59 : Ref sig .tc := ⟨.hbm, 89, rfl⟩
abbrev main_v60 : Ref sig .tc := ⟨.hbm, 90, rfl⟩
abbrev main_c_10 : Ref sig .tc := ⟨.hbm, 91, rfl⟩
abbrev main_v61 : Ref sig .tc := ⟨.hbm, 92, rfl⟩
abbrev main_v62 : Ref sig .tc := ⟨.hbm, 93, rfl⟩
abbrev main_c_11 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_12 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_call4_cst : Ref sig .tc := ⟨.hbm, 106, rfl⟩
abbrev main_call4_v0 : Ref sig .tc := ⟨.hbm, 107, rfl⟩
abbrev main_v73 : Ref sig .tc := ⟨.hbm, 108, rfl⟩
abbrev main_v74 : Ref sig .tc := ⟨.hbm, 109, rfl⟩
abbrev main_c_13 : Ref sig .tc := ⟨.hbm, 110, rfl⟩
abbrev main_v75 : Ref sig .tc := ⟨.hbm, 111, rfl⟩
abbrev main_v76 : Ref sig .tc := ⟨.hbm, 112, rfl⟩
abbrev main_c_14 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_15 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_call5_cst : Ref sig .tc := ⟨.hbm, 125, rfl⟩
abbrev main_call5_v0 : Ref sig .tc := ⟨.hbm, 126, rfl⟩
abbrev main_v87 : Ref sig .tc := ⟨.hbm, 127, rfl⟩
abbrev main_v88 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x48 : S_.BroadcastsInDim S100000x48 (![] : Fin 0 → Fin S100000x48.rank)
  bcast_S_S100000x128 : S_.BroadcastsInDim S100000x128 (![] : Fin 0 → Fin S100000x128.rank)
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S100000x48_S48x128_S100000x128_1_0_0_1_n_n_wf : DotDims.WF S100000x48 S48x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S100000x48_S48x128_S100000x128_1_0_0_1_n_n : DotDims S100000x48 S48x128 S100000x128 where
  lhsContracting := [1]
  rhsContracting := [0]
  lhsNonContracting := [0]
  rhsNonContracting := [1]
  lhsBatch := []
  rhsBatch := []
  wf := dot_S100000x48_S48x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The network both programs compute, written index by index over the extended reals.

  Six graph-convolution layers over 100000 nodes.  With `a` the neighbour sum of the node features `h`
  (whatever function produced it: both programs produce it by the same gather and scatter-add, which is never
  opened here), a layer sends `h` to `max ((h + a) · W) 0 + r`, where the residual `r` is `x · Wd` in the first
  layer (48 input features) and `h` itself in the five later ones (128 features).  A matrix product is the plain
  sum over the shared coordinate.  The zero of the maximum is kept as the word both programs print.
-/
import Idealize.ShloMosaic.PureOps.Ideal
import Idealize.ShloMosaic.Lib.ValueIdx

noncomputable section

namespace Cert.GraphNet

open Idealize.ShloMosaic Idealize.ShloMosaic.ValueIdx

/-- Node features, 48 wide (the input). -/
abbrev Nodes48 : Shape := ⟨2, ![100000, 48]⟩
/-- Node features, 128 wide (every hidden layer). -/
abbrev Nodes128 : Shape := ⟨2, ![100000, 128]⟩
/-- A first-layer weight matrix. -/
abbrev Mat48 : Shape := ⟨2, ![48, 128]⟩
/-- A later layer's weight matrix. -/
abbrev Mat128 : Shape := ⟨2, ![128, 128]⟩

/-- The zero the rectifier compares with, as the word `0x00000000` read at the ideal values. -/
abbrev zeroWord : Ideal .f32 := Ideal.ofBits .f32 0x00000000#32

/-- Entry `(p, q)` of the first layer: `max (∑ₖ (x + a)[p,k] · W1[k,q]) 0 + ∑ₖ x[p,k] · Wd[k,q]`. -/
def firstLayerAt (x a : FVec Ideal Nodes48 .f32) (W1 Wd : FVec Ideal Mat48 .f32) (p : Fin 100000) (q : Fin 128) : Ideal .f32 :=
  max (∑ k : Fin 48, (x (ix2 p k) + a (ix2 p k)) * W1 (ix2 k q)) zeroWord + ∑ k : Fin 48, x (ix2 p k) * Wd (ix2 k q)

/-- The first layer as an array. -/
def firstLayer (x a : FVec Ideal Nodes48 .f32) (W1 Wd : FVec Ideal Mat48 .f32) : FVec Ideal Nodes128 .f32 :=
  fun i => firstLayerAt x a W1 Wd (i 0) (i 1)

/-- Entry `(p, q)` of a later layer: `max (∑ₖ (h + a)[p,k] · W[k,q]) 0 + h[p,q]`. -/
def layerAt (h a : FVec Ideal Nodes128 .f32) (W : FVec Ideal Mat128 .f32) (p : Fin 100000) (q : Fin 128) : Ideal .f32 :=
  max (∑ k : Fin 128, (h (ix2 p k) + a (ix2 p k)) * W (ix2 k q)) zeroWord + h (ix2 p q)

/-- A later layer as an array. -/
def layer (h a : FVec Ideal Nodes128 .f32) (W : FVec Ideal Mat128 .f32) : FVec Ideal Nodes128 .f32 :=
  fun i => layerAt h a W (i 0) (i 1)

theorem firstLayer_apply (x a : FVec Ideal Nodes48 .f32) (W1 Wd : FVec Ideal Mat48 .f32) (i : Nodes128.Idx) :
    firstLayer x a W1 Wd i = firstLayerAt x a W1 Wd (i 0) (i 1) := rfl

theorem layer_apply (h a : FVec Ideal Nodes128 .f32) (W : FVec Ideal Mat128 .f32) (i : Nodes128.Idx) :
    layer h a W i = layerAt h a W (i 0) (i 1) := rfl

/-- The whole network, given the two neighbour-sum functions (on 48-wide and on 128-wide features). -/
def net (agg48 : FVec Ideal Nodes48 .f32 → FVec Ideal Nodes48 .f32) (agg128 : FVec Ideal Nodes128 .f32 → FVec Ideal Nodes128 .f32)
    (x : FVec Ideal Nodes48 .f32) (Wd W1 : FVec Ideal Mat48 .f32) (W2 W3 W4 W5 W6 : FVec Ideal Mat128 .f32) : FVec Ideal Nodes128 .f32 :=
  let h1 := firstLayer x (agg48 x) W1 Wd
  let h2 := layer h1 (agg128 h1) W2
  let h3 := layer h2 (agg128 h2) W3
  let h4 := layer h3 (agg128 h3) W4
  let h5 := layer h4 (agg128 h4) W5
  layer h5 (agg128 h5) W6

end Cert.GraphNet

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.BodyValue.lean ====
/-
  What one run of a kernel body stores, read at an entry of its block, at the ideal values.

  The first layer's body holds a 5000-row block of `x` and of the neighbour sums `a` and both 48 × 128 weight
  matrices; it stores `max ((x + a) · W1) 0 + x · Wd`.  A later layer's body holds a 5000-row block of `h` and of
  `a` and the 128 × 128 matrix `W`; it stores `max ((h + a) · W) 0 + h`.  Narrowing to bf16 before the products is
  the identity on extended reals, a product into the zero accumulator is the plain sum over the shared coordinate,
  and everything else acts entry by entry.
-/
import proofs.«136489_j50732153701091_1_alg».proof.Proof.Gen.KernelIdeal.Skeleton
import proofs.«136489_j50732153701091_1_alg».proof.Proof.LibPlainProduct
import Idealize.ShloMosaic.Lib.Pipeline.Value
import Idealize.ShloMosaic.Lib.ValueIdx
import Idealize.ShloMosaic.PureOps.Ideal.Laws

noncomputable section

namespace Cert.GraphNet.Body

open Idealize.ShloMosaic Idealize.ShloMosaic.ValueIdx Cert.KernelIdeal Cert.KernelIdeal.Gen

/-- A 5000 × 48 block times a 48 × 128 matrix into the zero accumulator, at `(p, q)`. -/
theorem product48 (A : FVec Ideal S5000x48 .bf16) (B : FVec Ideal S48x128 .bf16) (p : Fin 5000) (q : Fin 128) :
    matmul dot_S5000x48_S48x128_S5000x128_1_0_0_1_n_n none A B (constant S5000x128 .f32 0x00000000#32) (ix2 p q)
      = ∑ k : Fin 48, A (ix2 p k) * B (ix2 k q) :=
  Cert.PlainProduct.matmul_nn_apply dot_S5000x48_S48x128_S5000x128_1_0_0_1_n_n_wf none A B p q

/-- A 5000 × 128 block times a 128 × 128 matrix into the zero accumulator, at `(p, q)`. -/
theorem product128 (A : FVec Ideal S5000x128 .bf16) (B : FVec Ideal S128x128 .bf16) (p : Fin 5000) (q : Fin 128) :
    matmul dot_S5000x128_S128x128_S5000x128_1_0_0_1_n_n none A B (constant S5000x128 .f32 0x00000000#32) (ix2 p q)
      = ∑ k : Fin 128, A (ix2 p k) * B (ix2 k q) :=
  Cert.PlainProduct.matmul_nn_apply dot_S5000x128_S128x128_S5000x128_1_0_0_1_n_n_wf none A B p q

/-- The first layer's stored value at `(p, q)` of the block. -/
theorem first_apply (x a : Vec Ideal S5000x48 .f32) (W1 Wd : Vec Ideal S48x128 .f32) (p : Fin 5000) (q : Fin 128) :
    k0_pay1 (F := Ideal) x a W1 Wd (ix2 p q)
      = max (∑ k : Fin 48, (x (ix2 p k) + a (ix2 p k)) * W1 (ix2 k q)) (Ideal.ofBits .f32 0x00000000#32)
        + ∑ k : Fin 48, x (ix2 p k) * Wd (ix2 k q) := by
  unfold k0_pay1
  simp only [shapeCast_self]
  show max (matmul dot_S5000x48_S48x128_S5000x128_1_0_0_1_n_n none (fun i => x i + a i) W1 (constant S5000x128 .f32 0x00000000#32) (ix2 p q))
      (Ideal.ofBits .f32 0x00000000#32)
    + matmul dot_S5000x48_S48x128_S5000x128_1_0_0_1_n_n none x Wd (constant S5000x128 .f32 0x00000000#32) (ix2 p q) = _
  rw [product48, product48]

/-- A later layer's stored value at `(p, q)` of the block. -/
theorem later_apply (h a : Vec Ideal S5000x128 .f32) (W : Vec Ideal S128x128 .f32) (p : Fin 5000) (q : Fin 128) :
    k1_pay1 (F := Ideal) h a W (ix2 p q)
      = max (∑ k : Fin 128, (h (ix2 p k) + a (ix2 p k)) * W (ix2 k q)) (Ideal.ofBits .f32 0x00000000#32) + h (ix2 p q) := by
  unfold k1_pay1
  simp only [shapeCast_self]
  show max (matmul dot_S5000x128_S128x128_S5000x128_1_0_0_1_n_n none (fun i => h i + a i) W (constant S5000x128 .f32 0x00000000#32) (ix2 p q))
      (Ideal.ofBits .f32 0x00000000#32) + h (ix2 p q) = _
  rw [product128]

/-- The five later layers run one body, printed five times. -/
theorem pay2_eq : @k2_pay1 = @k1_pay1 := rfl
theorem pay3_eq : @k3_pay1 = @k1_pay1 := rfl
theorem pay4_eq : @k4_pay1 = @k1_pay1 := rfl
theorem pay5_eq : @k5_pay1 = @k1_pay1 := rfl

end Cert.GraphNet.Body

end
-- ==== Proof.Region0.lean ====
/-
  Region 0 of the kernel's program — the first layer — as one function of the arrays it finds.

  The grid has 20 points; point `t` holds rows `5000·t … 5000·t + 4999` of the 48-wide input `x` and of its neighbour
  sums `a`, and both 48 × 128 matrices whole, and writes back the same rows of the 128-wide output.  What it writes
  is the rows' part of `firstLayer x a W1 Wd`: entry `(p, q)` of the block depends on row `p` of the two input
  blocks and on column `q` of the two matrices.  The 20 blocks tile the 100000 rows, so after the region the output
  array is `firstLayer x a W1 Wd` everywhere.
-/
import proofs.«136489_j50732153701091_1_alg».proof.Proof.Gen.KernelIdeal.Frame
import proofs.«136489_j50732153701091_1_alg».proof.Proof.Spec
import proofs.«136489_j50732153701091_1_alg».proof.Proof.BodyValue
import Idealize.ShloMosaic.Lib.Pipeline.Value
import Idealize.ShloMosaic.Lib.ValueIdx

set_option maxRecDepth 16384

noncomputable section

namespace Cert.GraphNet.Region0

open Idealize.ShloMosaic Idealize.ShloMosaic.TcCoe Idealize.SL.Sem Idealize.ShloMosaic.ValueIdx
open Cert.KernelIdeal Cert.KernelIdeal.Gen Cert.GraphNet
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The block indices at a grid point, decided over the 20 points: the two row-blocked inputs and the output are at
    block row `t`, column block 0; each weight matrix is always its one block. -/
theorem block_index : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The body's stored entry `(p, q)` is the first layer's entry `(p', q')`, once each block entry it reads is the
    array entry it stands for. -/
theorem stored_entry (x0 x1 : Vec Ideal S5000x48 .f32) (x2 x3 : Vec Ideal S48x128 .f32)
    (X Ag : FVec Ideal Nodes48 .f32) (W1 Wd : FVec Ideal Mat48 .f32) (p : Fin 5000) (q : Fin 128) (p' : Fin 100000) (q' : Fin 128)
    (h0 : ∀ k : Fin 48, x0 (ix2 p k) = X (ix2 p' k))
    (h1 : ∀ k : Fin 48, x1 (ix2 p k) = Ag (ix2 p' k))
    (h2 : ∀ k : Fin 48, x2 (ix2 k q) = W1 (ix2 k q'))
    (h3 : ∀ k : Fin 48, x3 (ix2 k q) = Wd (ix2 k q')) :
    k0_pay1 (F := Ideal) x0 x1 x2 x3 (ix2 p q) = firstLayerAt X Ag W1 Wd p' q' := by
  have hs : (∑ k : Fin 48, (x0 (ix2 p k) + x1 (ix2 p k)) * x2 (ix2 k q))
      = ∑ k : Fin 48, (X (ix2 p' k) + Ag (ix2 p' k)) * W1 (ix2 k q') :=
    Finset.sum_congr rfl fun k _ => by rw [h0, h1, h2]
  have hr : (∑ k : Fin 48, x0 (ix2 p k) * x3 (ix2 k q)) = ∑ k : Fin 48, X (ix2 p' k) * Wd (ix2 k q') :=
    Finset.sum_congr rfl fun k _ => by rw [h0, h3]
  rw [Body.first_apply, hs, hr]
  rfl

/-- WHAT POINT `t` WRITES BACK: its block of `firstLayer x a W1 Wd` of the arrays as the region finds them. -/
theorem written_block (c : Dev nD) (t : Fin cfg0.N) :
    (dat0 V c).flushed 4 t = ((cfg0.win 4).blk t).view.read (Elt Ideal) (firstLayer (V c main_arg0) (V c main_v13) (V c main_arg4) (V c main_arg3)) := by
  show (cfg0.win 4).cut (grid0.coords t) ((dat0 V c).after 4 t) = _
  rw [after0_4]
  unfold out0_4
  rw [View.canon_unit_zero origin]
  simp only [View.ld_unit_zero (S := S5000x48) origin, View.ld_unit_zero (S := S48x128) origin]
  obtain ⟨e00, e01, e10, e11, e20, e21, e30, e31, e40, e41⟩ := block_index t
  funext j
  show k0_pay1 (F := Ideal) (iblk0 V c 0 t) (iblk0 V c 1 t) (iblk0 V c 2 t) (iblk0 V c 3 t) j
    = firstLayer (V c main_arg0) (V c main_v13) (V c main_arg4) (V c main_arg3) (((cfg0.win 4).blk t).view.emb j)
  have hj0 : (j 0).val < 5000 := (j 0).isLt
  have hj1 : (j 1).val < 128 := (j 1).isLt
  refine (congrArg (k0_pay1 (F := Ideal) (iblk0 V c 0 t) (iblk0 V c 1 t) (iblk0 V c 2 t) (iblk0 V c 3 t)) (eq_ix2 j)).trans
    (stored_entry (iblk0 V c 0 t) (iblk0 V c 1 t) (iblk0 V c 2 t) (iblk0 V c 3 t) (V c main_arg0) (V c main_v13) (V c main_arg4) (V c main_arg3)
      (j 0) (j 1) ((((cfg0.win 4).blk t).view.emb j) 0) ((((cfg0.win 4).blk t).view.emb j) 1) (fun k => ?_) (fun k => ?_) (fun k => ?_) (fun k => ?_))
  · have e : ((cfg0.win 0).blk t).view.emb (ix2 (j 0) k) = ix2 (n0 := 100000) (n1 := 48) ((((cfg0.win 4).blk t).view.emb j) 0) k := by
      funext a; apply Fin.ext
      match a with
      | ⟨0, _⟩ => show win0_0.index t (0 : Fin 2) * 5000 + 1 * (j 0).val = win0_4.index t (0 : Fin 2) * 5000 + 1 * (j 0).val; omega
      | ⟨1, _⟩ => show win0_0.index t (1 : Fin 2) * 48 + 1 * k.val = k.val; omega
    show V c main_arg0 (((cfg0.win 0).blk t).view.emb (ix2 (j 0) k)) = _
    rw [e] <;> rfl
  · have e : ((cfg0.win 1).blk t).view.emb (ix2 (j 0) k) = ix2 (n0 := 100000) (n1 := 48) ((((cfg0.win 4).blk t).view.emb j) 0) k := by
      funext a; apply Fin.ext
      match a with
      | ⟨0, _⟩ => show win0_1.index t (0 : Fin 2) * 5000 + 1 * (j 0).val = win0_4.index t (0 : Fin 2) * 5000 + 1 * (j 0).val; omega
      | ⟨1, _⟩ => show win0_1.index t (1 : Fin 2) * 48 + 1 * k.val = k.val; omega
    show V c main_v13 (((cfg0.win 1).blk t).view.emb (ix2 (j 0) k)) = _
    rw [e] <;> rfl
  · have e : ((cfg0.win 2).blk t).view.emb (ix2 k (j 1)) = ix2 (n0 := 48) (n1 := 128) k ((((cfg0.win 4).blk t).view.emb j) 1) := by
      funext a; apply Fin.ext
      match a with
      | ⟨0, _⟩ => show win0_2.index t (0 : Fin 2) * 48 + 1 * k.val = k.val; omega
      | ⟨1, _⟩ => show win0_2.index t (1 : Fin 2) * 128 + 1 * (j 1).val = win0_4.index t (1 : Fin 2) * 128 + 1 * (j 1).val; omega
    show V c main_arg4 (((cfg0.win 2).blk t).view.emb (ix2 k (j 1))) = _
    rw [e] <;> rfl
  · have e : ((cfg0.win 3).blk t).view.emb (ix2 k (j 1)) = ix2 (n0 := 48) (n1 := 128) k ((((cfg0.win 4).blk t).view.emb j) 1) := by
      funext a; apply Fin.ext
      match a with
      | ⟨0, _⟩ => show win0_3.index t (0 : Fin 2) * 48 + 1 * k.val = k.val; omega
      | ⟨1, _⟩ => show win0_3.index t (1 : Fin 2) * 128 + 1 * (j 1).val = win0_4.index t (1 : Fin 2) * 128 + 1 * (j 1).val; omega
    show V c main_arg3 (((cfg0.win 3).blk t).view.emb (ix2 k (j 1))) = _
    rw [e] <;> rfl

/-- An index of the output array is in point `t`'s block iff each coordinate is in the block's range on its axis. -/
theorem in_block (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v14).slice (win0_4.rect t)).set ↔ _
  rw [View.set_slice_whole, Rect.mem_set_unit]
  exact Iff.rfl

/-- Every row is in the block of the point numbered by the row over 5000. -/
theorem tiled (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : grid0.N = 20 := N_0
  let t : Fin cfg0.N := ⟨(i 0).val / 5000, by show (i 0).val / 5000 < grid0.N; rw [hN]; omega⟩
  obtain ⟨-, -, -, -, -, -, -, -, e40, e41⟩ := block_index t
  have ht : t.val = (i 0).val / 5000 := rfl
  refine ⟨t, flush0_4 t, ?_⟩
  rw [in_block]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- THE OUTPUT ARRAY after the region: `firstLayer x a W1 Wd` of the arrays the region found. -/
theorem output (c : Dev nD) :
    (dat0 V c).arrAt 4 cfg0.N = firstLayer (V c main_arg0) (V c main_v13) (V c main_arg4) (V c main_arg3) :=
  (dat0 V c).arrAt_eq_of_cover 4 _ (fun t _ => written_block V c t) tiled

end Cert.GraphNet.Region0

end
-- ==== Proof.Neighbours.lean ====
/-
  The neighbour sum, as the one chain of host operations both programs apply.

  From the 2 × 1600000 edge table: row 0 is the sources, row 1 the destinations.  A source number is first normalised
  the way jnp indexes (a negative number has 100000 added), the rows of the node features at the sources are gathered,
  and they are scatter-added at the destinations into a zero array.  Both programs print exactly these operations;
  they are named here once, applied to whatever node features a layer has, and never opened: the two programs are
  compared above this function, not through it.
-/
import proofs.«136489_j50732153701091_1_alg».proof.Proof.Gen.KernelIdeal
import Idealize.ShloMosaic.PureOps.Ideal

noncomputable section

namespace Cert.GraphNet

open Idealize.ShloMosaic Cert.KernelIdeal Cert.KernelIdeal.Facts₀ Cert.KernelIdeal.Facts

/-- Row 0 of the edge table, as a vector: the sources. -/
def sources (ei : Vec Ideal S2x1600000 .i32) : Vec Ideal S1600000 .i32 :=
  shapeCast S1600000 (extractStridedSlice S1x1600000 ![0, 0] ei slices_S2x1600000_S1x1600000_0_0) shapeCasts_S1x1600000_S1600000

/-- Row 1 of the edge table, as a vector: the destinations. -/
def destinations (ei : Vec Ideal S2x1600000 .i32) : Vec Ideal S1600000 .i32 :=
  shapeCast S1600000 (extractStridedSlice S1x1600000 ![1, 0] ei slices_S2x1600000_S1x1600000_1_0) shapeCasts_S1x1600000_S1600000

/-- The sources as an index column, a negative number moved up by 100000. -/
def sourceColumn (s : Vec Ideal S1600000 .i32) : Vec Ideal S1600000x1 .i32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The neighbour sum of 48-wide node features. -/
def agg48 (s d : Vec Ideal S1600000 .i32) (x : Vec Ideal S100000x48 .f32) : Vec Ideal S100000x48 .f32 :=
  Host.scatterAdd scatter_S100000x48_S1600000x1_S1600000x48_1_0_0_1
    (broadcastInDim S100000x48 ![] bcast_S_S100000x48 (constant (F := Ideal) S_ .f32 0x00000000#32))
    (broadcastInDim S1600000x1 ![0] bcast_S1600000_S1600000x1_0 d)
    (Host.gather gather_S100000x48_S1600000x1_S1600000x48_1_0_n_n_0_1_148 x (sourceColumn s))

/-- The neighbour sum of 128-wide node features. -/
def agg128 (s d : Vec Ideal S1600000 .i32) (h : Vec Ideal S100000x128 .f32) : Vec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 h (sourceColumn s))

end Cert.GraphNet

end
-- ==== Proof.LibHostKept.lean ====
/-
  A buffer that no operation of a stretch of host lines writes keeps its contents.

  For a LITERAL list `ops` of host operations (the builders `nullary`, `unary`, `binary`, `ternary`, `quaternary`,
  `reshape`, and the outlined functions' typed forms of them) and a reference `b` that none of them writes,
  `after ops v b = v b` for any contents `v`.  The tactic `host_kept ops` closes such a goal: it walks the list once,
  reads each operation's written buffer, and decides the reference different from it.  Useful wherever a value is
  carried across a stretch that neither reads nor writes it — a program of several device regions among host lines,
  or a long host program read stretch by stretch.
-/
import Idealize.ShloMosaic.Lib.StableHlo.Run

namespace Cert.Kept

/-- Closes `after ops v b = v b` for a literal list `ops` (given by name) none of whose operations writes `b`. -/
macro "host_kept" l:ident : tactic => `(tactic| (
  refine Idealize.ShloMosaic.StableHlo.after_of_forall_not_mem _ _ (List.forall_iff_forall_mem.mp ?_)
  simp only [$l:ident, List.Forall, Idealize.ShloMosaic.StableHlo.nullary_writes, Idealize.ShloMosaic.StableHlo.unary_writes,
    Idealize.ShloMosaic.StableHlo.binary_writes, Idealize.ShloMosaic.StableHlo.ternary_writes,
    Idealize.ShloMosaic.StableHlo.quaternary_writes, Idealize.ShloMosaic.StableHlo.reshape_writes, Finset.mem_singleton]
  repeat' apply And.intro
  all_goals exact Idealize.ShloMosaic.StableHlo.devRef_ne_of_ne (by decide)))

end Cert.Kept
-- ==== Proof.Stretch0.lean ====
/-
  The first stretch of host operations and the first region, buffer by buffer.

  The stretch cuts the edge table into sources and destinations and computes the neighbour sums of `x`; it writes no
  argument.  The region then overwrites its output array with the first layer of the arrays it finds and leaves every
  other buffer alone.
-/
import proofs.«136489_j50732153701091_1_alg».proof.Proof.Region0
import proofs.«136489_j50732153701091_1_alg».proof.Proof.Neighbours
import proofs.«136489_j50732153701091_1_alg».proof.Proof.LibHostKept
import Idealize.ShloMosaic.Lib.StableHlo.Run

set_option maxRecDepth 16384

noncomputable section

namespace Cert.GraphNet.Kernel

open Idealize.ShloMosaic Idealize.ShloMosaic.TcCoe Idealize.SL.Sem Idealize.ShloMosaic.StableHlo
open Cert.KernelIdeal Cert.KernelIdeal.Gen Cert.GraphNet Cert.Kept

variable (m : (ℓ : Loc nD τ sig) → Buf (Elt Ideal) ℓ) (ρ : Dev nD → PrngReg)

/-- The sources and destinations of device `c`'s edge table. -/
def src (c : Dev nD) : Vec Ideal S1600000 .i32 := sources (m ((c : Thread nD τ).loc main_arg1))
def dst (c : Dev nD) : Vec Ideal S1600000 .i32 := destinations (m ((c : Thread nD τ).loc main_arg1))

set_option maxHeartbeats 4000000 in
/-- After the first stretch the buffer of the neighbour sums holds them. -/
theorem entry0_agg (c : Dev nD) : W1 m ρ c (Proc.devRef .tc main_v13) = agg48 (src m c) (dst m c) (m ((c : Thread nD τ).loc main_arg0)) := by
  show StableHlo.after hostOps0 (W0 m ρ c) (Proc.devRef .tc main_v13) = _
  simp only [hostOps0]
  after_results_simp
  rfl
set_option maxHeartbeats 4000000 in
theorem entry0_src (c : Dev nD) : W1 m ρ c (Proc.devRef .tc main_v1) = src m c := by
  show StableHlo.after hostOps0 (W0 m ρ c) (Proc.devRef .tc main_v1) = _
  simp only [hostOps0]
  after_results_simp
  rfl
set_option maxHeartbeats 4000000 in
theorem entry0_dst (c : Dev nD) : W1 m ρ c (Proc.devRef .tc main_v3) = dst m c := by
  show StableHlo.after hostOps0 (W0 m ρ c) (Proc.devRef .tc main_v3) = _
  simp only [hostOps0]
  after_results_simp
  rfl
/-- The first stretch does not write argument 0. -/
theorem entry0_arg0 (c : Dev nD) : W1 m ρ c (Proc.devRef .tc main_arg0) = (m ((c : Thread nD τ).loc main_arg0)) := by
  show StableHlo.after hostOps0 (W0 m ρ c) (Proc.devRef .tc main_arg0) = W0 m ρ c (Proc.devRef .tc main_arg0)
  host_kept hostOps0
/-- The first stretch does not write argument 3. -/
theorem entry0_arg3 (c : Dev nD) : W1 m ρ c (Proc.devRef .tc main_arg3) = (m ((c : Thread nD τ).loc main_arg3)) := by
  show StableHlo.after hostOps0 (W0 m ρ c) (Proc.devRef .tc main_arg3) = W0 m ρ c (Proc.devRef .tc main_arg3)
  host_kept hostOps0
/-- The first stretch does not write argument 4. -/
theorem entry0_arg4 (c : Dev nD) : W1 m ρ c (Proc.devRef .tc main_arg4) = (m ((c : Thread nD τ).loc main_arg4)) := by
  show StableHlo.after hostOps0 (W0 m ρ c) (Proc.devRef .tc main_arg4) = W0 m ρ c (Proc.devRef .tc main_arg4)
  host_kept hostOps0
/-- The first stretch does not write argument 5. -/
theorem entry0_arg5 (c : Dev nD) : W1 m ρ c (Proc.devRef .tc main_arg5) = (m ((c : Thread nD τ).loc main_arg5)) := by
  show StableHlo.after hostOps0 (W0 m ρ c) (Proc.devRef .tc main_arg5) = W0 m ρ c (Proc.devRef .tc main_arg5)
  host_kept hostOps0
/-- The first stretch does not write argument 6. -/
theorem entry0_arg6 (c : Dev nD) : W1 m ρ c (Proc.devRef .tc main_arg6) = (m ((c : Thread nD τ).loc main_arg6)) := by
  show StableHlo.after hostOps0 (W0 m ρ c) (Proc.devRef .tc main_arg6) = W0 m ρ c (Proc.devRef .tc main_arg6)
  host_kept hostOps0
/-- The first stretch does not write argument 7. -/
theorem entry0_arg7 (c : Dev nD) : W1 m ρ c (Proc.devRef .tc main_arg7) = (m ((c : Thread nD τ).loc main_arg7)) := by
  show StableHlo.after hostOps0 (W0 m ρ c) (Proc.devRef .tc main_arg7) = W0 m ρ c (Proc.devRef .tc main_arg7)
  host_kept hostOps0
/-- The first stretch does not write argument 8. -/
theorem entry0_arg8 (c : Dev nD) : W1 m ρ c (Proc.devRef .tc main_arg8) = (m ((c : Thread nD τ).loc main_arg8)) := by
  show StableHlo.after hostOps0 (W0 m ρ c) (Proc.devRef .tc main_arg8) = W0 m ρ c (Proc.devRef .tc main_arg8)
  host_kept hostOps0
/-- The first stretch does not write argument 9. -/
theorem entry0_arg9 (c : Dev nD) : W1 m ρ c (Proc.devRef .tc main_arg9) = (m ((c : Thread nD τ).loc main_arg9)) := by
  show StableHlo.after hostOps0 (W0 m ρ c) (Proc.devRef .tc main_arg9) = W0 m ρ c (Proc.devRef .tc main_arg9)
  host_kept hostOps0

/-- The first region's output array, from the contents it was entered with. -/
theorem out0 (c : Dev nD) : W2 m ρ c (Proc.devRef .tc main_v14)
    = firstLayer (W1 m ρ c (Proc.devRef .tc main_arg0)) (W1 m ρ c (Proc.devRef .tc main_v13)) (W1 m ρ c (Proc.devRef .tc main_arg4)) (W1 m ρ c (Proc.devRef .tc main_arg3)) :=
  (W2_arr m ρ c 4).trans (Region0.output (V1 m ρ) c)
/-- The first region does not write `main_v1`. -/
theorem carry0_main_v1 (c : Dev nD) : W2 m ρ c (Proc.devRef .tc main_v1) = W1 m ρ c (Proc.devRef .tc main_v1) := W2_of_ne m ρ c main_v1 (by decide)
/-- The first region does not write `main_v3`. -/
theorem carry0_main_v3 (c : Dev nD) : W2 m ρ c (Proc.devRef .tc main_v3) = W1 m ρ c (Proc.devRef .tc main_v3) := W2_of_ne m ρ c main_v3 (by decide)
/-- The first region does not write `main_arg5`. -/
theorem carry0_main_arg5 (c : Dev nD) : W2 m ρ c (Proc.devRef .tc main_arg5) = W1 m ρ c (Proc.devRef .tc main_arg5) := W2_of_ne m ρ c main_arg5 (by decide)
/-- The first region does not write `main_arg6`. -/
theorem carry0_main_arg6 (c : Dev nD) : W2 m ρ c (Proc.devRef .tc main_arg6) = W1 m ρ c (Proc.devRef .tc main_arg6) := W2_of_ne m ρ c main_arg6 (by decide)
/-- The first region does not write `main_arg7`. -/
theorem carry0_main_arg7 (c : Dev nD) : W2 m ρ c (Proc.devRef .tc main_arg7) = W1 m ρ c (Proc.devRef .tc main_arg7) := W2_of_ne m ρ c main_arg7 (by decide)
/-- The first region does not write `main_arg8`. -/
theorem carry0_main_arg8 (c : Dev nD) : W2 m ρ c (Proc.devRef .tc main_arg8) = W1 m ρ c (Proc.devRef .tc main_arg8) := W2_of_ne m ρ c main_arg8 (by decide)
/-- The first region does not write `main_arg9`. -/
theorem carry0_main_arg9 (c : Dev nD) : W2 m ρ c (Proc.devRef .tc main_arg9) = W1 m ρ c (Proc.devRef .tc main_arg9) := W2_of_ne m ρ c main_arg9 (by decide)

end Cert.GraphNet.Kernel

end
-- ==== Proof.Region1.lean ====
/-
  Region 1 of the kernel's program — one of the five later layers — as one function of the arrays it finds.

  The grid has 20 points; point `t` holds rows `5000·t … 5000·t + 4999` of the node features `h` and of the neighbour
  sums `a`, and the whole 128 × 128 matrix `W`, and writes back the same rows of the output.  What it writes is the
  rows' part of `layer h a W`: entry `(p, q)` of the block depends on row `p` of the two input blocks, on column
  `q` of `W`, and on entry `(p, q)` of `h`'s block, and each of those sits in its array at row `5000·t + p`.  The
  20 blocks tile the 100000 rows, so after the region the output array is `layer h a W` everywhere.
-/
import proofs.«136489_j50732153701091_1_alg».proof.Proof.Gen.KernelIdeal.Frame
import proofs.«136489_j50732153701091_1_alg».proof.Proof.Spec
import proofs.«136489_j50732153701091_1_alg».proof.Proof.BodyValue
import Idealize.ShloMosaic.Lib.Pipeline.Value
import Idealize.ShloMosaic.Lib.ValueIdx

set_option maxRecDepth 16384

noncomputable section

namespace Cert.GraphNet.Region1

open Idealize.ShloMosaic Idealize.ShloMosaic.TcCoe Idealize.SL.Sem Idealize.ShloMosaic.ValueIdx
open Cert.KernelIdeal Cert.KernelIdeal.Gen Cert.GraphNet
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The block indices at a grid point, decided over the 20 points: the two row-blocked inputs and the output are at
    block row `t`, column block 0; the weight matrix is always its one block. -/
theorem block_index : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's stored entry `(p, q)` is the layer's entry `(p', q')`, once each block entry it reads is the array
    entry it stands for. -/
theorem stored_entry (x0 x1 : Vec Ideal S5000x128 .f32) (x2 : Vec Ideal S128x128 .f32)
    (H A : FVec Ideal Nodes128 .f32) (Wt : FVec Ideal Mat128 .f32) (p : Fin 5000) (q : Fin 128) (p' : Fin 100000) (q' : Fin 128)
    (h0 : ∀ k : Fin 128, x0 (ix2 p k) = H (ix2 p' k))
    (h1 : ∀ k : Fin 128, x1 (ix2 p k) = A (ix2 p' k))
    (h2 : ∀ k : Fin 128, x2 (ix2 k q) = Wt (ix2 k q'))
    (hy : x0 (ix2 p q) = H (ix2 p' q')) :
    k1_pay1 (F := Ideal) x0 x1 x2 (ix2 p q) = layerAt H A Wt p' q' := by
  have hs : (∑ k : Fin 128, (x0 (ix2 p k) + x1 (ix2 p k)) * x2 (ix2 k q))
      = ∑ k : Fin 128, (H (ix2 p' k) + A (ix2 p' k)) * Wt (ix2 k q') :=
    Finset.sum_congr rfl fun k _ => by rw [h0, h1, h2]
  rw [Body.later_apply, hs, hy]
  rfl

/-- WHAT POINT `t` WRITES BACK: its block of `layer h a W` of the arrays as the region finds them. -/
theorem written_block (c : Dev nD) (t : Fin cfg1.N) :
    (dat1 V c).flushed 3 t = ((cfg1.win 3).blk t).view.read (Elt Ideal) (layer (V c main_v14) (V c main_v24) (V c main_arg5)) := by
  show (cfg1.win 3).cut (grid1.coords t) ((dat1 V c).after 3 t) = _
  rw [after1_3]
  unfold out1_3
  rw [View.canon_unit_zero origin]
  simp only [View.ld_unit_zero (S := S5000x128) origin, View.ld_unit_zero (S := S128x128) origin]
  obtain ⟨e00, e01, e10, e11, e20, e21, e30, e31⟩ := block_index t
  funext j
  show k1_pay1 (F := Ideal) (iblk1 V c 0 t) (iblk1 V c 1 t) (iblk1 V c 2 t) j
    = layer (V c main_v14) (V c main_v24) (V c main_arg5) (((cfg1.win 3).blk t).view.emb j)
  have hj0 : (j 0).val < 5000 := (j 0).isLt
  have hj1 : (j 1).val < 128 := (j 1).isLt
  refine (congrArg (k1_pay1 (F := Ideal) (iblk1 V c 0 t) (iblk1 V c 1 t) (iblk1 V c 2 t)) (eq_ix2 j)).trans
    (stored_entry (iblk1 V c 0 t) (iblk1 V c 1 t) (iblk1 V c 2 t) (V c main_v14) (V c main_v24) (V c main_arg5)
      (j 0) (j 1) ((((cfg1.win 3).blk t).view.emb j) 0) ((((cfg1.win 3).blk t).view.emb j) 1) (fun k => ?_) (fun k => ?_) (fun k => ?_) ?_)
  · have e : ((cfg1.win 0).blk t).view.emb (ix2 (j 0) k) = ix2 (n0 := 100000) (n1 := 128) ((((cfg1.win 3).blk t).view.emb j) 0) k := by
      funext a; apply Fin.ext
      match a with
      | ⟨0, _⟩ => show win1_0.index t (0 : Fin 2) * 5000 + 1 * (j 0).val = win1_3.index t (0 : Fin 2) * 5000 + 1 * (j 0).val; omega
      | ⟨1, _⟩ => show win1_0.index t (1 : Fin 2) * 128 + 1 * k.val = k.val; omega
    show V c main_v14 (((cfg1.win 0).blk t).view.emb (ix2 (j 0) k)) = _
    rw [e] <;> rfl
  · have e : ((cfg1.win 1).blk t).view.emb (ix2 (j 0) k) = ix2 (n0 := 100000) (n1 := 128) ((((cfg1.win 3).blk t).view.emb j) 0) k := by
      funext a; apply Fin.ext
      match a with
      | ⟨0, _⟩ => show win1_1.index t (0 : Fin 2) * 5000 + 1 * (j 0).val = win1_3.index t (0 : Fin 2) * 5000 + 1 * (j 0).val; omega
      | ⟨1, _⟩ => show win1_1.index t (1 : Fin 2) * 128 + 1 * k.val = k.val; omega
    show V c main_v24 (((cfg1.win 1).blk t).view.emb (ix2 (j 0) k)) = _
    rw [e] <;> rfl
  · have e : ((cfg1.win 2).blk t).view.emb (ix2 k (j 1)) = ix2 (n0 := 128) (n1 := 128) k ((((cfg1.win 3).blk t).view.emb j) 1) := by
      funext a; apply Fin.ext
      match a with
      | ⟨0, _⟩ => show win1_2.index t (0 : Fin 2) * 128 + 1 * k.val = k.val; omega
      | ⟨1, _⟩ => show win1_2.index t (1 : Fin 2) * 128 + 1 * (j 1).val = win1_3.index t (1 : Fin 2) * 128 + 1 * (j 1).val; omega
    show V c main_arg5 (((cfg1.win 2).blk t).view.emb (ix2 k (j 1))) = _
    rw [e] <;> rfl
  · have e : ((cfg1.win 0).blk t).view.emb (ix2 (j 0) (j 1)) = ix2 (n0 := 100000) (n1 := 128) ((((cfg1.win 3).blk t).view.emb j) 0) ((((cfg1.win 3).blk t).view.emb j) 1) := by
      funext a; apply Fin.ext
      match a with
      | ⟨0, _⟩ => show win1_0.index t (0 : Fin 2) * 5000 + 1 * (j 0).val = win1_3.index t (0 : Fin 2) * 5000 + 1 * (j 0).val; omega
      | ⟨1, _⟩ => show win1_0.index t (1 : Fin 2) * 128 + 1 * (j 1).val = win1_3.index t (1 : Fin 2) * 128 + 1 * (j 1).val; omega
    show V c main_v14 (((cfg1.win 0).blk t).view.emb (ix2 (j 0) (j 1))) = _
    rw [e] <;> rfl

/-- An index of the output array is in point `t`'s block iff each coordinate is in the block's range on its axis. -/
theorem in_block (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v25).slice (win1_3.rect t)).set ↔ _
  rw [View.set_slice_whole, Rect.mem_set_unit]
  exact Iff.rfl

/-- Every row is in the block of the point numbered by the row over 5000. -/
theorem tiled (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : grid1.N = 20 := N_1
  let t : Fin cfg1.N := ⟨(i 0).val / 5000, by show (i 0).val / 5000 < grid1.N; rw [hN]; omega⟩
  obtain ⟨-, -, -, -, -, -, e30, e31⟩ := block_index t
  have ht : t.val = (i 0).val / 5000 := rfl
  refine ⟨t, flush1_3 t, ?_⟩
  rw [in_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE OUTPUT ARRAY after the region: `layer h a W` of the arrays the region found. -/
theorem output (c : Dev nD) :
    (dat1 V c).arrAt 3 cfg1.N = layer (V c main_v14) (V c main_v24) (V c main_arg5) :=
  (dat1 V c).arrAt_eq_of_cover 3 _ (fun t _ => written_block V c t) tiled

end Cert.GraphNet.Region1

end
-- ==== Proof.Stretch1.lean ====
/-
  Stretch 1 of host operations and region 1, buffer by buffer.

  The stretch computes the neighbour sums of the current node features from the sources and destinations the first
  stretch left, and writes nothing else that is read later.  The region then overwrites its output array with the
  layer of the arrays it finds and leaves every other buffer alone.
-/
import proofs.«136489_j50732153701091_1_alg».proof.Proof.Region1
import proofs.«136489_j50732153701091_1_alg».proof.Proof.Neighbours
import proofs.«136489_j50732153701091_1_alg».proof.Proof.LibHostKept
import Idealize.ShloMosaic.Lib.StableHlo.Run

set_option maxRecDepth 16384

noncomputable section

namespace Cert.GraphNet.Kernel

open Idealize.ShloMosaic Idealize.ShloMosaic.TcCoe Idealize.SL.Sem Idealize.ShloMosaic.StableHlo
open Cert.KernelIdeal Cert.KernelIdeal.Gen Cert.GraphNet Cert.Kept

variable (m : (ℓ : Loc nD τ sig) → Buf (Elt Ideal) ℓ) (ρ : Dev nD → PrngReg)

set_option maxHeartbeats 4000000 in
/-- After the stretch the buffer of the neighbour sums holds them, of the features, sources and destinations found. -/
theorem agg1 (c : Dev nD) : W3 m ρ c (Proc.devRef .tc main_v24)
    = agg128 (W2 m ρ c (Proc.devRef .tc main_v1)) (W2 m ρ c (Proc.devRef .tc main_v3)) (W2 m ρ c (Proc.devRef .tc main_v14)) := by
  show StableHlo.after hostOps1 (W2 m ρ c) (Proc.devRef .tc main_v24) = _
  simp only [hostOps1]
  after_results_simp
  rfl
/-- The stretch does not write `main_v14`. -/
theorem keep1_main_v14 (c : Dev nD) : W3 m ρ c (Proc.devRef .tc main_v14) = W2 m ρ c (Proc.devRef .tc main_v14) := by
  show StableHlo.after hostOps1 (W2 m ρ c) (Proc.devRef .tc main_v14) = W2 m ρ c (Proc.devRef .tc main_v14)
  host_kept hostOps1
/-- The stretch does not write `main_arg5`. -/
theorem keep1_main_arg5 (c : Dev nD) : W3 m ρ c (Proc.devRef .tc main_arg5) = W2 m ρ c (Proc.devRef .tc main_arg5) := by
  show StableHlo.after hostOps1 (W2 m ρ c) (Proc.devRef .tc main_arg5) = W2 m ρ c (Proc.devRef .tc main_arg5)
  host_kept hostOps1
/-- The stretch does not write `main_v1`. -/
theorem keep1_main_v1 (c : Dev nD) : W3 m ρ c (Proc.devRef .tc main_v1) = W2 m ρ c (Proc.devRef .tc main_v1) := by
  show StableHlo.after hostOps1 (W2 m ρ c) (Proc.devRef .tc main_v1) = W2 m ρ c (Proc.devRef .tc main_v1)
  host_kept hostOps1
/-- The stretch does not write `main_v3`. -/
theorem keep1_main_v3 (c : Dev nD) : W3 m ρ c (Proc.devRef .tc main_v3) = W2 m ρ c (Proc.devRef .tc main_v3) := by
  show StableHlo.after hostOps1 (W2 m ρ c) (Proc.devRef .tc main_v3) = W2 m ρ c (Proc.devRef .tc main_v3)
  host_kept hostOps1
/-- The stretch does not write `main_arg6`. -/
theorem keep1_main_arg6 (c : Dev nD) : W3 m ρ c (Proc.devRef .tc main_arg6) = W2 m ρ c (Proc.devRef .tc main_arg6) := by
  show StableHlo.after hostOps1 (W2 m ρ c) (Proc.devRef .tc main_arg6) = W2 m ρ c (Proc.devRef .tc main_arg6)
  host_kept hostOps1
/-- The stretch does not write `main_arg7`. -/
theorem keep1_main_arg7 (c : Dev nD) : W3 m ρ c (Proc.devRef .tc main_arg7) = W2 m ρ c (Proc.devRef .tc main_arg7) := by
  show StableHlo.after hostOps1 (W2 m ρ c) (Proc.devRef .tc main_arg7) = W2 m ρ c (Proc.devRef .tc main_arg7)
  host_kept hostOps1
/-- The stretch does not write `main_arg8`. -/
theorem keep1_main_arg8 (c : Dev nD) : W3 m ρ c (Proc.devRef .tc main_arg8) = W2 m ρ c (Proc.devRef .tc main_arg8) := by
  show StableHlo.after hostOps1 (W2 m ρ c) (Proc.devRef .tc main_arg8) = W2 m ρ c (Proc.devRef .tc main_arg8)
  host_kept hostOps1
/-- The stretch does not write `main_arg9`. -/
theorem keep1_main_arg9 (c : Dev nD) : W3 m ρ c (Proc.devRef .tc main_arg9) = W2 m ρ c (Proc.devRef .tc main_arg9) := by
  show StableHlo.after hostOps1 (W2 m ρ c) (Proc.devRef .tc main_arg9) = W2 m ρ c (Proc.devRef .tc main_arg9)
  host_kept hostOps1

/-- The region's output array, from the contents it was entered with. -/
theorem out1 (c : Dev nD) : W4 m ρ c (Proc.devRef .tc main_v25)
    = layer (W3 m ρ c (Proc.devRef .tc main_v14)) (W3 m ρ c (Proc.devRef .tc main_v24)) (W3 m ρ c (Proc.devRef .tc main_arg5)) :=
  (W4_arr m ρ c 3).trans (Region1.output (V3 m ρ) c)
/-- The region does not write `main_v1`. -/
theorem carry1_main_v1 (c : Dev nD) : W4 m ρ c (Proc.devRef .tc main_v1) = W3 m ρ c (Proc.devRef .tc main_v1) := W4_of_ne m ρ c main_v1 (by decide)
/-- The region does not write `main_v3`. -/
theorem carry1_main_v3 (c : Dev nD) : W4 m ρ c (Proc.devRef .tc main_v3) = W3 m ρ c (Proc.devRef .tc main_v3) := W4_of_ne m ρ c main_v3 (by decide)
/-- The region does not write `main_arg6`. -/
theorem carry1_main_arg6 (c : Dev nD) : W4 m ρ c (Proc.devRef .tc main_arg6) = W3 m ρ c (Proc.devRef .tc main_arg6) := W4_of_ne m ρ c main_arg6 (by decide)
/-- The region does not write `main_arg7`. -/
theorem carry1_main_arg7 (c : Dev nD) : W4 m ρ c (Proc.devRef .tc main_arg7) = W3 m ρ c (Proc.devRef .tc main_arg7) := W4_of_ne m ρ c main_arg7 (by decide)
/-- The region does not write `main_arg8`. -/
theorem carry1_main_arg8 (c : Dev nD) : W4 m ρ c (Proc.devRef .tc main_arg8) = W3 m ρ c (Proc.devRef .tc main_arg8) := W4_of_ne m ρ c main_arg8 (by decide)
/-- The region does not write `main_arg9`. -/
theorem carry1_main_arg9 (c : Dev nD) : W4 m ρ c (Proc.devRef .tc main_arg9) = W3 m ρ c (Proc.devRef .tc main_arg9) := W4_of_ne m ρ c main_arg9 (by decide)

end Cert.GraphNet.Kernel

end
-- ==== Proof.Region2.lean ====
/-
  Region 2 of the kernel's program — one of the five later layers — as one function of the arrays it finds.

  The grid has 20 points; point `t` holds rows `5000·t … 5000·t + 4999` of the node features `h` and of the neighbour
  sums `a`, and the whole 128 × 128 matrix `W`, and writes back the same rows of the output.  What it writes is the
  rows' part of `layer h a W`: entry `(p, q)` of the block depends on row `p` of the two input blocks, on column
  `q` of `W`, and on entry `(p, q)` of `h`'s block, and each of those sits in its array at row `5000·t + p`.  The
  20 blocks tile the 100000 rows, so after the region the output array is `layer h a W` everywhere.
-/
import proofs.«136489_j50732153701091_1_alg».proof.Proof.Gen.KernelIdeal.Frame
import proofs.«136489_j50732153701091_1_alg».proof.Proof.Spec
import proofs.«136489_j50732153701091_1_alg».proof.Proof.BodyValue
import Idealize.ShloMosaic.Lib.Pipeline.Value
import Idealize.ShloMosaic.Lib.ValueIdx

set_option maxRecDepth 16384

noncomputable section

namespace Cert.GraphNet.Region2

open Idealize.ShloMosaic Idealize.ShloMosaic.TcCoe Idealize.SL.Sem Idealize.ShloMosaic.ValueIdx
open Cert.KernelIdeal Cert.KernelIdeal.Gen Cert.GraphNet
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The block indices at a grid point, decided over the 20 points: the two row-blocked inputs and the output are at
    block row `t`, column block 0; the weight matrix is always its one block. -/
theorem block_index : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The body's stored entry `(p, q)` is the layer's entry `(p', q')`, once each block entry it reads is the array
    entry it stands for. -/
theorem stored_entry (x0 x1 : Vec Ideal S5000x128 .f32) (x2 : Vec Ideal S128x128 .f32)
    (H A : FVec Ideal Nodes128 .f32) (Wt : FVec Ideal Mat128 .f32) (p : Fin 5000) (q : Fin 128) (p' : Fin 100000) (q' : Fin 128)
    (h0 : ∀ k : Fin 128, x0 (ix2 p k) = H (ix2 p' k))
    (h1 : ∀ k : Fin 128, x1 (ix2 p k) = A (ix2 p' k))
    (h2 : ∀ k : Fin 128, x2 (ix2 k q) = Wt (ix2 k q'))
    (hy : x0 (ix2 p q) = H (ix2 p' q')) :
    k2_pay1 (F := Ideal) x0 x1 x2 (ix2 p q) = layerAt H A Wt p' q' := by
  have hs : (∑ k : Fin 128, (x0 (ix2 p k) + x1 (ix2 p k)) * x2 (ix2 k q))
      = ∑ k : Fin 128, (H (ix2 p' k) + A (ix2 p' k)) * Wt (ix2 k q') :=
    Finset.sum_congr rfl fun k _ => by rw [h0, h1, h2]
  rw [Body.pay2_eq, Body.later_apply, hs, hy]
  rfl

/-- WHAT POINT `t` WRITES BACK: its block of `layer h a W` of the arrays as the region finds them. -/
theorem written_block (c : Dev nD) (t : Fin cfg2.N) :
    (dat2 V c).flushed 3 t = ((cfg2.win 3).blk t).view.read (Elt Ideal) (layer (V c main_v25) (V c main_v35) (V c main_arg6)) := by
  show (cfg2.win 3).cut (grid2.coords t) ((dat2 V c).after 3 t) = _
  rw [after2_3]
  unfold out2_3
  rw [View.canon_unit_zero origin]
  simp only [View.ld_unit_zero (S := S5000x128) origin, View.ld_unit_zero (S := S128x128) origin]
  obtain ⟨e00, e01, e10, e11, e20, e21, e30, e31⟩ := block_index t
  funext j
  show k2_pay1 (F := Ideal) (iblk2 V c 0 t) (iblk2 V c 1 t) (iblk2 V c 2 t) j
    = layer (V c main_v25) (V c main_v35) (V c main_arg6) (((cfg2.win 3).blk t).view.emb j)
  have hj0 : (j 0).val < 5000 := (j 0).isLt
  have hj1 : (j 1).val < 128 := (j 1).isLt
  refine (congrArg (k2_pay1 (F := Ideal) (iblk2 V c 0 t) (iblk2 V c 1 t) (iblk2 V c 2 t)) (eq_ix2 j)).trans
    (stored_entry (iblk2 V c 0 t) (iblk2 V c 1 t) (iblk2 V c 2 t) (V c main_v25) (V c main_v35) (V c main_arg6)
      (j 0) (j 1) ((((cfg2.win 3).blk t).view.emb j) 0) ((((cfg2.win 3).blk t).view.emb j) 1) (fun k => ?_) (fun k => ?_) (fun k => ?_) ?_)
  · have e : ((cfg2.win 0).blk t).view.emb (ix2 (j 0) k) = ix2 (n0 := 100000) (n1 := 128) ((((cfg2.win 3).blk t).view.emb j) 0) k := by
      funext a; apply Fin.ext
      match a with
      | ⟨0, _⟩ => show win2_0.index t (0 : Fin 2) * 5000 + 1 * (j 0).val = win2_3.index t (0 : Fin 2) * 5000 + 1 * (j 0).val; omega
      | ⟨1, _⟩ => show win2_0.index t (1 : Fin 2) * 128 + 1 * k.val = k.val; omega
    show V c main_v25 (((cfg2.win 0).blk t).view.emb (ix2 (j 0) k)) = _
    rw [e] <;> rfl
  · have e : ((cfg2.win 1).blk t).view.emb (ix2 (j 0) k) = ix2 (n0 := 100000) (n1 := 128) ((((cfg2.win 3).blk t).view.emb j) 0) k := by
      funext a; apply Fin.ext
      match a with
      | ⟨0, _⟩ => show win2_1.index t (0 : Fin 2) * 5000 + 1 * (j 0).val = win2_3.index t (0 : Fin 2) * 5000 + 1 * (j 0).val; omega
      | ⟨1, _⟩ => show win2_1.index t (1 : Fin 2) * 128 + 1 * k.val = k.val; omega
    show V c main_v35 (((cfg2.win 1).blk t).view.emb (ix2 (j 0) k)) = _
    rw [e] <;> rfl
  · have e : ((cfg2.win 2).blk t).view.emb (ix2 k (j 1)) = ix2 (n0 := 128) (n1 := 128) k ((((cfg2.win 3).blk t).view.emb j) 1) := by
      funext a; apply Fin.ext
      match a with
      | ⟨0, _⟩ => show win2_2.index t (0 : Fin 2) * 128 + 1 * k.val = k.val; omega
      | ⟨1, _⟩ => show win2_2.index t (1 : Fin 2) * 128 + 1 * (j 1).val = win2_3.index t (1 : Fin 2) * 128 + 1 * (j 1).val; omega
    show V c main_arg6 (((cfg2.win 2).blk t).view.emb (ix2 k (j 1))) = _
    rw [e] <;> rfl
  · have e : ((cfg2.win 0).blk t).view.emb (ix2 (j 0) (j 1)) = ix2 (n0 := 100000) (n1 := 128) ((((cfg2.win 3).blk t).view.emb j) 0) ((((cfg2.win 3).blk t).view.emb j) 1) := by
      funext a; apply Fin.ext
      match a with
      | ⟨0, _⟩ => show win2_0.index t (0 : Fin 2) * 5000 + 1 * (j 0).val = win2_3.index t (0 : Fin 2) * 5000 + 1 * (j 0).val; omega
      | ⟨1, _⟩ => show win2_0.index t (1 : Fin 2) * 128 + 1 * (j 1).val = win2_3.index t (1 : Fin 2) * 128 + 1 * (j 1).val; omega
    show V c main_v25 (((cfg2.win 0).blk t).view.emb (ix2 (j 0) (j 1))) = _
    rw [e] <;> rfl

/-- An index of the output array is in point `t`'s block iff each coordinate is in the block's range on its axis. -/
theorem in_block (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v36).slice (win2_3.rect t)).set ↔ _
  rw [View.set_slice_whole, Rect.mem_set_unit]
  exact Iff.rfl

/-- Every row is in the block of the point numbered by the row over 5000. -/
theorem tiled (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : grid2.N = 20 := N_2
  let t : Fin cfg2.N := ⟨(i 0).val / 5000, by show (i 0).val / 5000 < grid2.N; rw [hN]; omega⟩
  obtain ⟨-, -, -, -, -, -, e30, e31⟩ := block_index t
  have ht : t.val = (i 0).val / 5000 := rfl
  refine ⟨t, flush2_3 t, ?_⟩
  rw [in_block]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- THE OUTPUT ARRAY after the region: `layer h a W` of the arrays the region found. -/
theorem output (c : Dev nD) :
    (dat2 V c).arrAt 3 cfg2.N = layer (V c main_v25) (V c main_v35) (V c main_arg6) :=
  (dat2 V c).arrAt_eq_of_cover 3 _ (fun t _ => written_block V c t) tiled

end Cert.GraphNet.Region2

end
-- ==== Proof.Stretch2.lean ====
/-
  Stretch 2 of host operations and region 2, buffer by buffer.

  The stretch computes the neighbour sums of the current node features from the sources and destinations the first
  stretch left, and writes nothing else that is read later.  The region then overwrites its output array with the
  layer of the arrays it finds and leaves every other buffer alone.
-/
import proofs.«136489_j50732153701091_1_alg».proof.Proof.Region2
import proofs.«136489_j50732153701091_1_alg».proof.Proof.Neighbours
import proofs.«136489_j50732153701091_1_alg».proof.Proof.LibHostKept
import Idealize.ShloMosaic.Lib.StableHlo.Run

set_option maxRecDepth 16384

noncomputable section

namespace Cert.GraphNet.Kernel

open Idealize.ShloMosaic Idealize.ShloMosaic.TcCoe Idealize.SL.Sem Idealize.ShloMosaic.StableHlo
open Cert.KernelIdeal Cert.KernelIdeal.Gen Cert.GraphNet Cert.Kept

variable (m : (ℓ : Loc nD τ sig) → Buf (Elt Ideal) ℓ) (ρ : Dev nD → PrngReg)

set_option maxHeartbeats 4000000 in
/-- After the stretch the buffer of the neighbour sums holds them, of the features, sources and destinations found. -/
theorem agg2 (c : Dev nD) : W5 m ρ c (Proc.devRef .tc main_v35)
    = agg128 (W4 m ρ c (Proc.devRef .tc main_v1)) (W4 m ρ c (Proc.devRef .tc main_v3)) (W4 m ρ c (Proc.devRef .tc main_v25)) := by
  show StableHlo.after hostOps2 (W4 m ρ c) (Proc.devRef .tc main_v35) = _
  simp only [hostOps2]
  after_results_simp
  rfl
/-- The stretch does not write `main_v25`. -/
theorem keep2_main_v25 (c : Dev nD) : W5 m ρ c (Proc.devRef .tc main_v25) = W4 m ρ c (Proc.devRef .tc main_v25) := by
  show StableHlo.after hostOps2 (W4 m ρ c) (Proc.devRef .tc main_v25) = W4 m ρ c (Proc.devRef .tc main_v25)
  host_kept hostOps2
/-- The stretch does not write `main_arg6`. -/
theorem keep2_main_arg6 (c : Dev nD) : W5 m ρ c (Proc.devRef .tc main_arg6) = W4 m ρ c (Proc.devRef .tc main_arg6) := by
  show StableHlo.after hostOps2 (W4 m ρ c) (Proc.devRef .tc main_arg6) = W4 m ρ c (Proc.devRef .tc main_arg6)
  host_kept hostOps2
/-- The stretch does not write `main_v1`. -/
theorem keep2_main_v1 (c : Dev nD) : W5 m ρ c (Proc.devRef .tc main_v1) = W4 m ρ c (Proc.devRef .tc main_v1) := by
  show StableHlo.after hostOps2 (W4 m ρ c) (Proc.devRef .tc main_v1) = W4 m ρ c (Proc.devRef .tc main_v1)
  host_kept hostOps2
/-- The stretch does not write `main_v3`. -/
theorem keep2_main_v3 (c : Dev nD) : W5 m ρ c (Proc.devRef .tc main_v3) = W4 m ρ c (Proc.devRef .tc main_v3) := by
  show StableHlo.after hostOps2 (W4 m ρ c) (Proc.devRef .tc main_v3) = W4 m ρ c (Proc.devRef .tc main_v3)
  host_kept hostOps2
/-- The stretch does not write `main_arg7`. -/
theorem keep2_main_arg7 (c : Dev nD) : W5 m ρ c (Proc.devRef .tc main_arg7) = W4 m ρ c (Proc.devRef .tc main_arg7) := by
  show StableHlo.after hostOps2 (W4 m ρ c) (Proc.devRef .tc main_arg7) = W4 m ρ c (Proc.devRef .tc main_arg7)
  host_kept hostOps2
/-- The stretch does not write `main_arg8`. -/
theorem keep2_main_arg8 (c : Dev nD) : W5 m ρ c (Proc.devRef .tc main_arg8) = W4 m ρ c (Proc.devRef .tc main_arg8) := by
  show StableHlo.after hostOps2 (W4 m ρ c) (Proc.devRef .tc main_arg8) = W4 m ρ c (Proc.devRef .tc main_arg8)
  host_kept hostOps2
/-- The stretch does not write `main_arg9`. -/
theorem keep2_main_arg9 (c : Dev nD) : W5 m ρ c (Proc.devRef .tc main_arg9) = W4 m ρ c (Proc.devRef .tc main_arg9) := by
  show StableHlo.after hostOps2 (W4 m ρ c) (Proc.devRef .tc main_arg9) = W4 m ρ c (Proc.devRef .tc main_arg9)
  host_kept hostOps2

/-- The region's output array, from the contents it was entered with. -/
theorem out2 (c : Dev nD) : W6 m ρ c (Proc.devRef .tc main_v36)
    = layer (W5 m ρ c (Proc.devRef .tc main_v25)) (W5 m ρ c (Proc.devRef .tc main_v35)) (W5 m ρ c (Proc.devRef .tc main_arg6)) :=
  (W6_arr m ρ c 3).trans (Region2.output (V5 m ρ) c)
/-- The region does not write `main_v1`. -/
theorem carry2_main_v1 (c : Dev nD) : W6 m ρ c (Proc.devRef .tc main_v1) = W5 m ρ c (Proc.devRef .tc main_v1) := W6_of_ne m ρ c main_v1 (by decide)
/-- The region does not write `main_v3`. -/
theorem carry2_main_v3 (c : Dev nD) : W6 m ρ c (Proc.devRef .tc main_v3) = W5 m ρ c (Proc.devRef .tc main_v3) := W6_of_ne m ρ c main_v3 (by decide)
/-- The region does not write `main_arg7`. -/
theorem carry2_main_arg7 (c : Dev nD) : W6 m ρ c (Proc.devRef .tc main_arg7) = W5 m ρ c (Proc.devRef .tc main_arg7) := W6_of_ne m ρ c main_arg7 (by decide)
/-- The region does not write `main_arg8`. -/
theorem carry2_main_arg8 (c : Dev nD) : W6 m ρ c (Proc.devRef .tc main_arg8) = W5 m ρ c (Proc.devRef .tc main_arg8) := W6_of_ne m ρ c main_arg8 (by decide)
/-- The region does not write `main_arg9`. -/
theorem carry2_main_arg9 (c : Dev nD) : W6 m ρ c (Proc.devRef .tc main_arg9) = W5 m ρ c (Proc.devRef .tc main_arg9) := W6_of_ne m ρ c main_arg9 (by decide)

end Cert.GraphNet.Kernel

end
-- ==== Proof.Region3.lean ====
/-
  Region 3 of the kernel's program — one of the five later layers — as one function of the arrays it finds.

  The grid has 20 points; point `t` holds rows `5000·t … 5000·t + 4999` of the node features `h` and of the neighbour
  sums `a`, and the whole 128 × 128 matrix `W`, and writes back the same rows of the output.  What it writes is the
  rows' part of `layer h a W`: entry `(p, q)` of the block depends on row `p` of the two input blocks, on column
  `q` of `W`, and on entry `(p, q)` of `h`'s block, and each of those sits in its array at row `5000·t + p`.  The
  20 blocks tile the 100000 rows, so after the region the output array is `layer h a W` everywhere.
-/
import proofs.«136489_j50732153701091_1_alg».proof.Proof.Gen.KernelIdeal.Frame
import proofs.«136489_j50732153701091_1_alg».proof.Proof.Spec
import proofs.«136489_j50732153701091_1_alg».proof.Proof.BodyValue
import Idealize.ShloMosaic.Lib.Pipeline.Value
import Idealize.ShloMosaic.Lib.ValueIdx

set_option maxRecDepth 16384

noncomputable section

namespace Cert.GraphNet.Region3

open Idealize.ShloMosaic Idealize.ShloMosaic.TcCoe Idealize.SL.Sem Idealize.ShloMosaic.ValueIdx
open Cert.KernelIdeal Cert.KernelIdeal.Gen Cert.GraphNet
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The block indices at a grid point, decided over the 20 points: the two row-blocked inputs and the output are at
    block row `t`, column block 0; the weight matrix is always its one block. -/
theorem block_index : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The body's stored entry `(p, q)` is the layer's entry `(p', q')`, once each block entry it reads is the array
    entry it stands for. -/
theorem stored_entry (x0 x1 : Vec Ideal S5000x128 .f32) (x2 : Vec Ideal S128x128 .f32)
    (H A : FVec Ideal Nodes128 .f32) (Wt : FVec Ideal Mat128 .f32) (p : Fin 5000) (q : Fin 128) (p' : Fin 100000) (q' : Fin 128)
    (h0 : ∀ k : Fin 128, x0 (ix2 p k) = H (ix2 p' k))
    (h1 : ∀ k : Fin 128, x1 (ix2 p k) = A (ix2 p' k))
    (h2 : ∀ k : Fin 128, x2 (ix2 k q) = Wt (ix2 k q'))
    (hy : x0 (ix2 p q) = H (ix2 p' q')) :
    k3_pay1 (F := Ideal) x0 x1 x2 (ix2 p q) = layerAt H A Wt p' q' := by
  have hs : (∑ k : Fin 128, (x0 (ix2 p k) + x1 (ix2 p k)) * x2 (ix2 k q))
      = ∑ k : Fin 128, (H (ix2 p' k) + A (ix2 p' k)) * Wt (ix2 k q') :=
    Finset.sum_congr rfl fun k _ => by rw [h0, h1, h2]
  rw [Body.pay3_eq, Body.later_apply, hs, hy]
  rfl

/-- WHAT POINT `t` WRITES BACK: its block of `layer h a W` of the arrays as the region finds them. -/
theorem written_block (c : Dev nD) (t : Fin cfg3.N) :
    (dat3 V c).flushed 3 t = ((cfg3.win 3).blk t).view.read (Elt Ideal) (layer (V c main_v36) (V c main_v46) (V c main_arg7)) := by
  show (cfg3.win 3).cut (grid3.coords t) ((dat3 V c).after 3 t) = _
  rw [after3_3]
  unfold out3_3
  rw [View.canon_unit_zero origin]
  simp only [View.ld_unit_zero (S := S5000x128) origin, View.ld_unit_zero (S := S128x128) origin]
  obtain ⟨e00, e01, e10, e11, e20, e21, e30, e31⟩ := block_index t
  funext j
  show k3_pay1 (F := Ideal) (iblk3 V c 0 t) (iblk3 V c 1 t) (iblk3 V c 2 t) j
    = layer (V c main_v36) (V c main_v46) (V c main_arg7) (((cfg3.win 3).blk t).view.emb j)
  have hj0 : (j 0).val < 5000 := (j 0).isLt
  have hj1 : (j 1).val < 128 := (j 1).isLt
  refine (congrArg (k3_pay1 (F := Ideal) (iblk3 V c 0 t) (iblk3 V c 1 t) (iblk3 V c 2 t)) (eq_ix2 j)).trans
    (stored_entry (iblk3 V c 0 t) (iblk3 V c 1 t) (iblk3 V c 2 t) (V c main_v36) (V c main_v46) (V c main_arg7)
      (j 0) (j 1) ((((cfg3.win 3).blk t).view.emb j) 0) ((((cfg3.win 3).blk t).view.emb j) 1) (fun k => ?_) (fun k => ?_) (fun k => ?_) ?_)
  · have e : ((cfg3.win 0).blk t).view.emb (ix2 (j 0) k) = ix2 (n0 := 100000) (n1 := 128) ((((cfg3.win 3).blk t).view.emb j) 0) k := by
      funext a; apply Fin.ext
      match a with
      | ⟨0, _⟩ => show win3_0.index t (0 : Fin 2) * 5000 + 1 * (j 0).val = win3_3.index t (0 : Fin 2) * 5000 + 1 * (j 0).val; omega
      | ⟨1, _⟩ => show win3_0.index t (1 : Fin 2) * 128 + 1 * k.val = k.val; omega
    show V c main_v36 (((cfg3.win 0).blk t).view.emb (ix2 (j 0) k)) = _
    rw [e] <;> rfl
  · have e : ((cfg3.win 1).blk t).view.emb (ix2 (j 0) k) = ix2 (n0 := 100000) (n1 := 128) ((((cfg3.win 3).blk t).view.emb j) 0) k := by
      funext a; apply Fin.ext
      match a with
      | ⟨0, _⟩ => show win3_1.index t (0 : Fin 2) * 5000 + 1 * (j 0).val = win3_3.index t (0 : Fin 2) * 5000 + 1 * (j 0).val; omega
      | ⟨1, _⟩ => show win3_1.index t (1 : Fin 2) * 128 + 1 * k.val = k.val; omega
    show V c main_v46 (((cfg3.win 1).blk t).view.emb (ix2 (j 0) k)) = _
    rw [e] <;> rfl
  · have e : ((cfg3.win 2).blk t).view.emb (ix2 k (j 1)) = ix2 (n0 := 128) (n1 := 128) k ((((cfg3.win 3).blk t).view.emb j) 1) := by
      funext a; apply Fin.ext
      match a with
      | ⟨0, _⟩ => show win3_2.index t (0 : Fin 2) * 128 + 1 * k.val = k.val; omega
      | ⟨1, _⟩ => show win3_2.index t (1 : Fin 2) * 128 + 1 * (j 1).val = win3_3.index t (1 : Fin 2) * 128 + 1 * (j 1).val; omega
    show V c main_arg7 (((cfg3.win 2).blk t).view.emb (ix2 k (j 1))) = _
    rw [e] <;> rfl
  · have e : ((cfg3.win 0).blk t).view.emb (ix2 (j 0) (j 1)) = ix2 (n0 := 100000) (n1 := 128) ((((cfg3.win 3).blk t).view.emb j) 0) ((((cfg3.win 3).blk t).view.emb j) 1) := by
      funext a; apply Fin.ext
      match a with
      | ⟨0, _⟩ => show win3_0.index t (0 : Fin 2) * 5000 + 1 * (j 0).val = win3_3.index t (0 : Fin 2) * 5000 + 1 * (j 0).val; omega
      | ⟨1, _⟩ => show win3_0.index t (1 : Fin 2) * 128 + 1 * (j 1).val = win3_3.index t (1 : Fin 2) * 128 + 1 * (j 1).val; omega
    show V c main_v36 (((cfg3.win 0).blk t).view.emb (ix2 (j 0) (j 1))) = _
    rw [e] <;> rfl

/-- An index of the output array is in point `t`'s block iff each coordinate is in the block's range on its axis. -/
theorem in_block (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v47).slice (win3_3.rect t)).set ↔ _
  rw [View.set_slice_whole, Rect.mem_set_unit]
  exact Iff.rfl

/-- Every row is in the block of the point numbered by the row over 5000. -/
theorem tiled (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : grid3.N = 20 := N_3
  let t : Fin cfg3.N := ⟨(i 0).val / 5000, by show (i 0).val / 5000 < grid3.N; rw [hN]; omega⟩
  obtain ⟨-, -, -, -, -, -, e30, e31⟩ := block_index t
  have ht : t.val = (i 0).val / 5000 := rfl
  refine ⟨t, flush3_3 t, ?_⟩
  rw [in_block]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- THE OUTPUT ARRAY after the region: `layer h a W` of the arrays the region found. -/
theorem output (c : Dev nD) :
    (dat3 V c).arrAt 3 cfg3.N = layer (V c main_v36) (V c main_v46) (V c main_arg7) :=
  (dat3 V c).arrAt_eq_of_cover 3 _ (fun t _ => written_block V c t) tiled

end Cert.GraphNet.Region3

end
-- ==== Proof.Stretch3.lean ====
/-
  Stretch 3 of host operations and region 3, buffer by buffer.

  The stretch computes the neighbour sums of the current node features from the sources and destinations the first
  stretch left, and writes nothing else that is read later.  The region then overwrites its output array with the
  layer of the arrays it finds and leaves every other buffer alone.
-/
import proofs.«136489_j50732153701091_1_alg».proof.Proof.Region3
import proofs.«136489_j50732153701091_1_alg».proof.Proof.Neighbours
import proofs.«136489_j50732153701091_1_alg».proof.Proof.LibHostKept
import Idealize.ShloMosaic.Lib.StableHlo.Run

set_option maxRecDepth 16384

noncomputable section

namespace Cert.GraphNet.Kernel

open Idealize.ShloMosaic Idealize.ShloMosaic.TcCoe Idealize.SL.Sem Idealize.ShloMosaic.StableHlo
open Cert.KernelIdeal Cert.KernelIdeal.Gen Cert.GraphNet Cert.Kept

variable (m : (ℓ : Loc nD τ sig) → Buf (Elt Ideal) ℓ) (ρ : Dev nD → PrngReg)

set_option maxHeartbeats 4000000 in
/-- After the stretch the buffer of the neighbour sums holds them, of the features, sources and destinations found. -/
theorem agg3 (c : Dev nD) : W7 m ρ c (Proc.devRef .tc main_v46)
    = agg128 (W6 m ρ c (Proc.devRef .tc main_v1)) (W6 m ρ c (Proc.devRef .tc main_v3)) (W6 m ρ c (Proc.devRef .tc main_v36)) := by
  show StableHlo.after hostOps3 (W6 m ρ c) (Proc.devRef .tc main_v46) = _
  simp only [hostOps3]
  after_results_simp
  rfl
/-- The stretch does not write `main_v36`. -/
theorem keep3_main_v36 (c : Dev nD) : W7 m ρ c (Proc.devRef .tc main_v36) = W6 m ρ c (Proc.devRef .tc main_v36) := by
  show StableHlo.after hostOps3 (W6 m ρ c) (Proc.devRef .tc main_v36) = W6 m ρ c (Proc.devRef .tc main_v36)
  host_kept hostOps3
/-- The stretch does not write `main_arg7`. -/
theorem keep3_main_arg7 (c : Dev nD) : W7 m ρ c (Proc.devRef .tc main_arg7) = W6 m ρ c (Proc.devRef .tc main_arg7) := by
  show StableHlo.after hostOps3 (W6 m ρ c) (Proc.devRef .tc main_arg7) = W6 m ρ c (Proc.devRef .tc main_arg7)
  host_kept hostOps3
/-- The stretch does not write `main_v1`. -/
theorem keep3_main_v1 (c : Dev nD) : W7 m ρ c (Proc.devRef .tc main_v1) = W6 m ρ c (Proc.devRef .tc main_v1) := by
  show StableHlo.after hostOps3 (W6 m ρ c) (Proc.devRef .tc main_v1) = W6 m ρ c (Proc.devRef .tc main_v1)
  host_kept hostOps3
/-- The stretch does not write `main_v3`. -/
theorem keep3_main_v3 (c : Dev nD) : W7 m ρ c (Proc.devRef .tc main_v3) = W6 m ρ c (Proc.devRef .tc main_v3) := by
  show StableHlo.after hostOps3 (W6 m ρ c) (Proc.devRef .tc main_v3) = W6 m ρ c (Proc.devRef .tc main_v3)
  host_kept hostOps3
/-- The stretch does not write `main_arg8`. -/
theorem keep3_main_arg8 (c : Dev nD) : W7 m ρ c (Proc.devRef .tc main_arg8) = W6 m ρ c (Proc.devRef .tc main_arg8) := by
  show StableHlo.after hostOps3 (W6 m ρ c) (Proc.devRef .tc main_arg8) = W6 m ρ c (Proc.devRef .tc main_arg8)
  host_kept hostOps3
/-- The stretch does not write `main_arg9`. -/
theorem keep3_main_arg9 (c : Dev nD) : W7 m ρ c (Proc.devRef .tc main_arg9) = W6 m ρ c (Proc.devRef .tc main_arg9) := by
  show StableHlo.after hostOps3 (W6 m ρ c) (Proc.devRef .tc main_arg9) = W6 m ρ c (Proc.devRef .tc main_arg9)
  host_kept hostOps3

/-- The region's output array, from the contents it was entered with. -/
theorem out3 (c : Dev nD) : W8 m ρ c (Proc.devRef .tc main_v47)
    = layer (W7 m ρ c (Proc.devRef .tc main_v36)) (W7 m ρ c (Proc.devRef .tc main_v46)) (W7 m ρ c (Proc.devRef .tc main_arg7)) :=
  (W8_arr m ρ c 3).trans (Region3.output (V7 m ρ) c)
/-- The region does not write `main_v1`. -/
theorem carry3_main_v1 (c : Dev nD) : W8 m ρ c (Proc.devRef .tc main_v1) = W7 m ρ c (Proc.devRef .tc main_v1) := W8_of_ne m ρ c main_v1 (by decide)
/-- The region does not write `main_v3`. -/
theorem carry3_main_v3 (c : Dev nD) : W8 m ρ c (Proc.devRef .tc main_v3) = W7 m ρ c (Proc.devRef .tc main_v3) := W8_of_ne m ρ c main_v3 (by decide)
/-- The region does not write `main_arg8`. -/
theorem carry3_main_arg8 (c : Dev nD) : W8 m ρ c (Proc.devRef .tc main_arg8) = W7 m ρ c (Proc.devRef .tc main_arg8) := W8_of_ne m ρ c main_arg8 (by decide)
/-- The region does not write `main_arg9`. -/
theorem carry3_main_arg9 (c : Dev nD) : W8 m ρ c (Proc.devRef .tc main_arg9) = W7 m ρ c (Proc.devRef .tc main_arg9) := W8_of_ne m ρ c main_arg9 (by decide)

end Cert.GraphNet.Kernel

end
-- ==== Proof.Region4.lean ====
/-
  Region 4 of the kernel's program — one of the five later layers — as one function of the arrays it finds.

  The grid has 20 points; point `t` holds rows `5000·t … 5000·t + 4999` of the node features `h` and of the neighbour
  sums `a`, and the whole 128 × 128 matrix `W`, and writes back the same rows of the output.  What it writes is the
  rows' part of `layer h a W`: entry `(p, q)` of the block depends on row `p` of the two input blocks, on column
  `q` of `W`, and on entry `(p, q)` of `h`'s block, and each of those sits in its array at row `5000·t + p`.  The
  20 blocks tile the 100000 rows, so after the region the output array is `layer h a W` everywhere.
-/
import proofs.«136489_j50732153701091_1_alg».proof.Proof.Gen.KernelIdeal.Frame
import proofs.«136489_j50732153701091_1_alg».proof.Proof.Spec
import proofs.«136489_j50732153701091_1_alg».proof.Proof.BodyValue
import Idealize.ShloMosaic.Lib.Pipeline.Value
import Idealize.ShloMosaic.Lib.ValueIdx

set_option maxRecDepth 16384

noncomputable section

namespace Cert.GraphNet.Region4

open Idealize.ShloMosaic Idealize.ShloMosaic.TcCoe Idealize.SL.Sem Idealize.ShloMosaic.ValueIdx
open Cert.KernelIdeal Cert.KernelIdeal.Gen Cert.GraphNet
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The block indices at a grid point, decided over the 20 points: the two row-blocked inputs and the output are at
    block row `t`, column block 0; the weight matrix is always its one block. -/
theorem block_index : ∀ t : Fin cfg4.N,
      win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The body's stored entry `(p, q)` is the layer's entry `(p', q')`, once each block entry it reads is the array
    entry it stands for. -/
theorem stored_entry (x0 x1 : Vec Ideal S5000x128 .f32) (x2 : Vec Ideal S128x128 .f32)
    (H A : FVec Ideal Nodes128 .f32) (Wt : FVec Ideal Mat128 .f32) (p : Fin 5000) (q : Fin 128) (p' : Fin 100000) (q' : Fin 128)
    (h0 : ∀ k : Fin 128, x0 (ix2 p k) = H (ix2 p' k))
    (h1 : ∀ k : Fin 128, x1 (ix2 p k) = A (ix2 p' k))
    (h2 : ∀ k : Fin 128, x2 (ix2 k q) = Wt (ix2 k q'))
    (hy : x0 (ix2 p q) = H (ix2 p' q')) :
    k4_pay1 (F := Ideal) x0 x1 x2 (ix2 p q) = layerAt H A Wt p' q' := by
  have hs : (∑ k : Fin 128, (x0 (ix2 p k) + x1 (ix2 p k)) * x2 (ix2 k q))
      = ∑ k : Fin 128, (H (ix2 p' k) + A (ix2 p' k)) * Wt (ix2 k q') :=
    Finset.sum_congr rfl fun k _ => by rw [h0, h1, h2]
  rw [Body.pay4_eq, Body.later_apply, hs, hy]
  rfl

/-- WHAT POINT `t` WRITES BACK: its block of `layer h a W` of the arrays as the region finds them. -/
theorem written_block (c : Dev nD) (t : Fin cfg4.N) :
    (dat4 V c).flushed 3 t = ((cfg4.win 3).blk t).view.read (Elt Ideal) (layer (V c main_v47) (V c main_v57) (V c main_arg8)) := by
  show (cfg4.win 3).cut (grid4.coords t) ((dat4 V c).after 3 t) = _
  rw [after4_3]
  unfold out4_3
  rw [View.canon_unit_zero origin]
  simp only [View.ld_unit_zero (S := S5000x128) origin, View.ld_unit_zero (S := S128x128) origin]
  obtain ⟨e00, e01, e10, e11, e20, e21, e30, e31⟩ := block_index t
  funext j
  show k4_pay1 (F := Ideal) (iblk4 V c 0 t) (iblk4 V c 1 t) (iblk4 V c 2 t) j
    = layer (V c main_v47) (V c main_v57) (V c main_arg8) (((cfg4.win 3).blk t).view.emb j)
  have hj0 : (j 0).val < 5000 := (j 0).isLt
  have hj1 : (j 1).val < 128 := (j 1).isLt
  refine (congrArg (k4_pay1 (F := Ideal) (iblk4 V c 0 t) (iblk4 V c 1 t) (iblk4 V c 2 t)) (eq_ix2 j)).trans
    (stored_entry (iblk4 V c 0 t) (iblk4 V c 1 t) (iblk4 V c 2 t) (V c main_v47) (V c main_v57) (V c main_arg8)
      (j 0) (j 1) ((((cfg4.win 3).blk t).view.emb j) 0) ((((cfg4.win 3).blk t).view.emb j) 1) (fun k => ?_) (fun k => ?_) (fun k => ?_) ?_)
  · have e : ((cfg4.win 0).blk t).view.emb (ix2 (j 0) k) = ix2 (n0 := 100000) (n1 := 128) ((((cfg4.win 3).blk t).view.emb j) 0) k := by
      funext a; apply Fin.ext
      match a with
      | ⟨0, _⟩ => show win4_0.index t (0 : Fin 2) * 5000 + 1 * (j 0).val = win4_3.index t (0 : Fin 2) * 5000 + 1 * (j 0).val; omega
      | ⟨1, _⟩ => show win4_0.index t (1 : Fin 2) * 128 + 1 * k.val = k.val; omega
    show V c main_v47 (((cfg4.win 0).blk t).view.emb (ix2 (j 0) k)) = _
    rw [e] <;> rfl
  · have e : ((cfg4.win 1).blk t).view.emb (ix2 (j 0) k) = ix2 (n0 := 100000) (n1 := 128) ((((cfg4.win 3).blk t).view.emb j) 0) k := by
      funext a; apply Fin.ext
      match a with
      | ⟨0, _⟩ => show win4_1.index t (0 : Fin 2) * 5000 + 1 * (j 0).val = win4_3.index t (0 : Fin 2) * 5000 + 1 * (j 0).val; omega
      | ⟨1, _⟩ => show win4_1.index t (1 : Fin 2) * 128 + 1 * k.val = k.val; omega
    show V c main_v57 (((cfg4.win 1).blk t).view.emb (ix2 (j 0) k)) = _
    rw [e] <;> rfl
  · have e : ((cfg4.win 2).blk t).view.emb (ix2 k (j 1)) = ix2 (n0 := 128) (n1 := 128) k ((((cfg4.win 3).blk t).view.emb j) 1) := by
      funext a; apply Fin.ext
      match a with
      | ⟨0, _⟩ => show win4_2.index t (0 : Fin 2) * 128 + 1 * k.val = k.val; omega
      | ⟨1, _⟩ => show win4_2.index t (1 : Fin 2) * 128 + 1 * (j 1).val = win4_3.index t (1 : Fin 2) * 128 + 1 * (j 1).val; omega
    show V c main_arg8 (((cfg4.win 2).blk t).view.emb (ix2 k (j 1))) = _
    rw [e] <;> rfl
  · have e : ((cfg4.win 0).blk t).view.emb (ix2 (j 0) (j 1)) = ix2 (n0 := 100000) (n1 := 128) ((((cfg4.win 3).blk t).view.emb j) 0) ((((cfg4.win 3).blk t).view.emb j) 1) := by
      funext a; apply Fin.ext
      match a with
      | ⟨0, _⟩ => show win4_0.index t (0 : Fin 2) * 5000 + 1 * (j 0).val = win4_3.index t (0 : Fin 2) * 5000 + 1 * (j 0).val; omega
      | ⟨1, _⟩ => show win4_0.index t (1 : Fin 2) * 128 + 1 * (j 1).val = win4_3.index t (1 : Fin 2) * 128 + 1 * (j 1).val; omega
    show V c main_v47 (((cfg4.win 0).blk t).view.emb (ix2 (j 0) (j 1))) = _
    rw [e] <;> rfl

/-- An index of the output array is in point `t`'s block iff each coordinate is in the block's range on its axis. -/
theorem in_block (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v58).slice (win4_3.rect t)).set ↔ _
  rw [View.set_slice_whole, Rect.mem_set_unit]
  exact Iff.rfl

/-- Every row is in the block of the point numbered by the row over 5000. -/
theorem tiled (i : S100000x128.Idx) : ∃ t : Fin cfg4.N, (cfg4.win 3).flush t = true ∧ i ∈ ((cfg4.win 3).blk t).view.set := by
  have hi0 : (i 0).val < 100000 := (i 0).isLt
  have hi1 : (i 1).val < 128 := (i 1).isLt
  have hN : grid4.N = 20 := N_4
  let t : Fin cfg4.N := ⟨(i 0).val / 5000, by show (i 0).val / 5000 < grid4.N; rw [hN]; omega⟩
  obtain ⟨-, -, -, -, -, -, e30, e31⟩ := block_index t
  have ht : t.val = (i 0).val / 5000 := rfl
  refine ⟨t, flush4_3 t, ?_⟩
  rw [in_block]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- THE OUTPUT ARRAY after the region: `layer h a W` of the arrays the region found. -/
theorem output (c : Dev nD) :
    (dat4 V c).arrAt 3 cfg4.N = layer (V c main_v47) (V c main_v57) (V c main_arg8) :=
  (dat4 V c).arrAt_eq_of_cover 3 _ (fun t _ => written_block V c t) tiled

end Cert.GraphNet.Region4

end
-- ==== Proof.Stretch4.lean ====
/-
  Stretch 4 of host operations and region 4, buffer by buffer.

  The stretch computes the neighbour sums of the current node features from the sources and destinations the first
  stretch left, and writes nothing else that is read later.  The region then overwrites its output array with the
  layer of the arrays it finds and leaves every other buffer alone.
-/
import proofs.«136489_j50732153701091_1_alg».proof.Proof.Region4
import proofs.«136489_j50732153701091_1_alg».proof.Proof.Neighbours
import proofs.«136489_j50732153701091_1_alg».proof.Proof.LibHostKept
import Idealize.ShloMosaic.Lib.StableHlo.Run

set_option maxRecDepth 16384

noncomputable section

namespace Cert.GraphNet.Kernel

open Idealize.ShloMosaic Idealize.ShloMosaic.TcCoe Idealize.SL.Sem Idealize.ShloMosaic.StableHlo
open Cert.KernelIdeal Cert.KernelIdeal.Gen Cert.GraphNet Cert.Kept

variable (m : (ℓ : Loc nD τ sig) → Buf (Elt Ideal) ℓ) (ρ : Dev nD → PrngReg)

set_option maxHeartbeats 4000000 in
/-- After the stretch the buffer of the neighbour sums holds them, of the features, sources and destinations found. -/
theorem agg4 (c : Dev nD) : W9 m ρ c (Proc.devRef .tc main_v57)
    = agg128 (W8 m ρ c (Proc.devRef .tc main_v1)) (W8 m ρ c (Proc.devRef .tc main_v3)) (W8 m ρ c (Proc.devRef .tc main_v47)) := by
  show StableHlo.after hostOps4 (W8 m ρ c) (Proc.devRef .tc main_v57) = _
  simp only [hostOps4]
  after_results_simp
  rfl
/-- The stretch does not write `main_v47`. -/
theorem keep4_main_v47 (c : Dev nD) : W9 m ρ c (Proc.devRef .tc main_v47) = W8 m ρ c (Proc.devRef .tc main_v47) := by
  show StableHlo.after hostOps4 (W8 m ρ c) (Proc.devRef .tc main_v47) = W8 m ρ c (Proc.devRef .tc main_v47)
  host_kept hostOps4
/-- The stretch does not write `main_arg8`. -/
theorem keep4_main_arg8 (c : Dev nD) : W9 m ρ c (Proc.devRef .tc main_arg8) = W8 m ρ c (Proc.devRef .tc main_arg8) := by
  show StableHlo.after hostOps4 (W8 m ρ c) (Proc.devRef .tc main_arg8) = W8 m ρ c (Proc.devRef .tc main_arg8)
  host_kept hostOps4
/-- The stretch does not write `main_v1`. -/
theorem keep4_main_v1 (c : Dev nD) : W9 m ρ c (Proc.devRef .tc main_v1) = W8 m ρ c (Proc.devRef .tc main_v1) := by
  show StableHlo.after hostOps4 (W8 m ρ c) (Proc.devRef .tc main_v1) = W8 m ρ c (Proc.devRef .tc main_v1)
  host_kept hostOps4
/-- The stretch does not write `main_v3`. -/
theorem keep4_main_v3 (c : Dev nD) : W9 m ρ c (Proc.devRef .tc main_v3) = W8 m ρ c (Proc.devRef .tc main_v3) := by
  show StableHlo.after hostOps4 (W8 m ρ c) (Proc.devRef .tc main_v3) = W8 m ρ c (Proc.devRef .tc main_v3)
  host_kept hostOps4
/-- The stretch does not write `main_arg9`. -/
theorem keep4_main_arg9 (c : Dev nD) : W9 m ρ c (Proc.devRef .tc main_arg9) = W8 m ρ c (Proc.devRef .tc main_arg9) := by
  show StableHlo.after hostOps4 (W8 m ρ c) (Proc.devRef .tc main_arg9) = W8 m ρ c (Proc.devRef .tc main_arg9)
  host_kept hostOps4

/-- The region's output array, from the contents it was entered with. -/
theorem out4 (c : Dev nD) : W10 m ρ c (Proc.devRef .tc main_v58)
    = layer (W9 m ρ c (Proc.devRef .tc main_v47)) (W9 m ρ c (Proc.devRef .tc main_v57)) (W9 m ρ c (Proc.devRef .tc main_arg8)) :=
  (W10_arr m ρ c 3).trans (Region4.output (V9 m ρ) c)
/-- The region does not write `main_v1`. -/
theorem carry4_main_v1 (c : Dev nD) : W10 m ρ c (Proc.devRef .tc main_v1) = W9 m ρ c (Proc.devRef .tc main_v1) := W10_of_ne m ρ c main_v1 (by decide)
/-- The region does not write `main_v3`. -/
theorem carry4_main_v3 (c : Dev nD) : W10 m ρ c (Proc.devRef .tc main_v3) = W9 m ρ c (Proc.devRef .tc main_v3) := W10_of_ne m ρ c main_v3 (by decide)
/-- The region does not write `main_arg9`. -/
theorem carry4_main_arg9 (c : Dev nD) : W10 m ρ c (Proc.devRef .tc main_arg9) = W9 m ρ c (Proc.devRef .tc main_arg9) := W10_of_ne m ρ c main_arg9 (by decide)

end Cert.GraphNet.Kernel

end
-- ==== Proof.Region5.lean ====
/-
  Region 5 of the kernel's program — one of the five later layers — as one function of the arrays it finds.

  The grid has 20 points; point `t` holds rows `5000·t … 5000·t + 4999` of the node features `h` and of the neighbour
  sums `a`, and the whole 128 × 128 matrix `W`, and writes back the same rows of the output.  What it writes is the
  rows' part of `layer h a W`: entry `(p, q)` of the block depends on row `p` of the two input blocks, on column
  `q` of `W`, and on entry `(p, q)` of `h`'s block, and each of those sits in its array at row `5000·t + p`.  The
  20 blocks tile the 100000 rows, so after the region the output array is `layer h a W` everywhere.
-/
import proofs.«136489_j50732153701091_1_alg».proof.Proof.Gen.KernelIdeal.Frame
import proofs.«136489_j50732153701091_1_alg».proof.Proof.Spec
import proofs.«136489_j50732153701091_1_alg».proof.Proof.BodyValue
import Idealize.ShloMosaic.Lib.Pipeline.Value
import Idealize.ShloMosaic.Lib.ValueIdx

set_option maxRecDepth 16384

noncomputable section

namespace Cert.GraphNet.Region5

open Idealize.ShloMosaic Idealize.ShloMosaic.TcCoe Idealize.SL.Sem Idealize.ShloMosaic.ValueIdx
open Cert.KernelIdeal Cert.KernelIdeal.Gen Cert.GraphNet
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The block indices at a grid point, decided over the 20 points: the two row-blocked inputs and the output are at
    block row `t`, column block 0; the weight matrix is always its one block. -/
theorem block_index : ∀ t : Fin cfg5.N,
      win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The body's stored entry `(p, q)` is the layer's entry `(p', q')`, once each block entry it reads is the array
    entry it stands for. -/
theorem stored_entry (x0 x1 : Vec Ideal S5000x128 .f32) (x2 : Vec Ideal S128x128 .f32)
    (H A : FVec Ideal Nodes128 .f32) (Wt : FVec Ideal Mat128 .f32) (p : Fin 5000) (q : Fin 128) (p' : Fin 100000) (q' : Fin 128)
    (h0 : ∀ k : Fin 128, x0 (ix2 p k) = H (ix2 p' k))
    (h1 : ∀ k : Fin 128, x1 (ix2 p k) = A (ix2 p' k))
    (h2 : ∀ k : Fin 128, x2 (ix2 k q) = Wt (ix2 k q'))
    (hy : x0 (ix2 p q) = H (ix2 p' q')) :
    k5_pay1 (F := Ideal) x0 x1 x2 (ix2 p q) = layerAt H A Wt p' q' := by
  have hs : (∑ k : Fin 128, (x0 (ix2 p k) + x1 (ix2 p k)) * x2 (ix2 k q))
      = ∑ k : Fin 128, (H (ix2 p' k) + A (ix2 p' k)) * Wt (ix2 k q') :=
    Finset.sum_congr rfl fun k _ => by rw [h0, h1, h2]
  rw [Body.pay5_eq, Body.later_apply, hs, hy]
  rfl

/-- WHAT POINT `t` WRITES BACK: its block of `layer h a W` of the arrays as the region finds them. -/
theorem written_block (c : Dev nD) (t : Fin cfg5.N) :
    (dat5 V c).flushed 3 t = ((cfg5.win 3).blk t).view.read (Elt Ideal) (layer (V c main_v58) (V c main_v68) (V c main_arg9)) := by
  show (cfg5.win 3).cut (grid5.coords t) ((dat5 V c).after 3 t) = _
  rw [after5_3]
  unfold out5_3
  rw [View.canon_unit_zero origin]
  simp only [View.ld_unit_zero (S := S5000x128) origin, View.ld_unit_zero (S := S128x128) origin]
  obtain ⟨e00, e01, e10, e11, e20, e21, e30, e31⟩ := block_index t
  funext j
  show k5_pay1 (F := Ideal) (iblk5 V c 0 t) (iblk5 V c 1 t) (iblk5 V c 2 t) j
    = layer (V c main_v58) (V c main_v68) (V c main_arg9) (((cfg5.win 3).blk t).view.emb j)
  have hj0 : (j 0).val < 5000 := (j 0).isLt
  have hj1 : (j 1).val < 128 := (j 1).isLt
  refine (congrArg (k5_pay1 (F := Ideal) (iblk5 V c 0 t) (iblk5 V c 1 t) (iblk5 V c 2 t)) (eq_ix2 j)).trans
    (stored_entry (iblk5 V c 0 t) (iblk5 V c 1 t) (iblk5 V c 2 t) (V c main_v58) (V c main_v68) (V c main_arg9)
      (j 0) (j 1) ((((cfg5.win 3).blk t).view.emb j) 0) ((((cfg5.win 3).blk t).view.emb j) 1) (fun k => ?_) (fun k => ?_) (fun k => ?_) ?_)
  · have e : ((cfg5.win 0).blk t).view.emb (ix2 (j 0) k) = ix2 (n0 := 100000) (n1 := 128) ((((cfg5.win 3).blk t).view.emb j) 0) k := by
      funext a; apply Fin.ext
      match a with
      | ⟨0, _⟩ => show win5_0.index t (0 : Fin 2) * 5000 + 1 * (j 0).val = win5_3.index t (0 : Fin 2) * 5000 + 1 * (j 0).val; omega
      | ⟨1, _⟩ => show win5_0.index t (1 : Fin 2) * 128 + 1 * k.val = k.val; omega
    show V c main_v58 (((cfg5.win 0).blk t).view.emb (ix2 (j 0) k)) = _
    rw [e] <;> rfl
  · have e : ((cfg5.win 1).blk t).view.emb (ix2 (j 0) k) = ix2 (n0 := 100000) (n1 := 128) ((((cfg5.win 3).blk t).view.emb j) 0) k := by
      funext a; apply Fin.ext
      match a with
      | ⟨0, _⟩ => show win5_1.index t (0 : Fin 2) * 5000 + 1 * (j 0).val = win5_3.index t (0 : Fin 2) * 5000 + 1 * (j 0).val; omega
      | ⟨1, _⟩ => show win5_1.index t (1 : Fin 2) * 128 + 1 * k.val = k.val; omega
    show V c main_v68 (((cfg5.win 1).blk t).view.emb (ix2 (j 0) k)) = _
    rw [e] <;> rfl
  · have e : ((cfg5.win 2).blk t).view.emb (ix2 k (j 1)) = ix2 (n0 := 128) (n1 := 128) k ((((cfg5.win 3).blk t).view.emb j) 1) := by
      funext a; apply Fin.ext
      match a with
      | ⟨0, _⟩ => show win5_2.index t (0 : Fin 2) * 128 + 1 * k.val = k.val; omega
      | ⟨1, _⟩ => show win5_2.index t (1 : Fin 2) * 128 + 1 * (j 1).val = win5_3.index t (1 : Fin 2) * 128 + 1 * (j 1).val; omega
    show V c main_arg9 (((cfg5.win 2).blk t).view.emb (ix2 k (j 1))) = _
    rw [e] <;> rfl
  · have e : ((cfg5.win 0).blk t).view.emb (ix2 (j 0) (j 1)) = ix2 (n0 := 100000) (n1 := 128) ((((cfg5.win 3).blk t).view.emb j) 0) ((((cfg5.win 3).blk t).view.emb j) 1) := by
      funext a; apply Fin.ext
      match a with
      | ⟨0, _⟩ => show win5_0.index t (0 : Fin 2) * 5000 + 1 * (j 0).val = win5_3.index t (0 : Fin 2) * 5000 + 1 * (j 0).val; omega
      | ⟨1, _⟩ => show win5_0.index t (1 : Fin 2) * 128 + 1 * (j 1).val = win5_3.index t (1 : Fin 2) * 128 + 1 * (j 1).val; omega
    show V c main_v58 (((cfg5.win 0).blk t).view.emb (ix2 (j 0) (j 1))) = _
    rw [e] <;> rfl

/-- An index of the output array is in point `t`'s block iff each coordinate is in the block's range on its axis. -/
theorem in_block (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v69).slice (win5_3.rect t)).set ↔ _
  rw [View.set_slice_whole, Rect.mem_set_unit]
  exact Iff.rfl

/-- Every row is in the block of the point numbered by the row over 5000. -/
theorem tiled (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  have hN : grid5.N = 20 := N_5
  let t : Fin cfg5.N := ⟨(i 0).val / 5000, by show (i 0).val / 5000 < grid5.N; rw [hN]; omega⟩
  obtain ⟨-, -, -, -, -, -, e30, e31⟩ := block_index t
  have ht : t.val = (i 0).val / 5000 := rfl
  refine ⟨t, flush5_3 t, ?_⟩
  rw [in_block]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- THE OUTPUT ARRAY after the region: `layer h a W` of the arrays the region found. -/
theorem output (c : Dev nD) :
    (dat5 V c).arrAt 3 cfg5.N = layer (V c main_v58) (V c main_v68) (V c main_arg9) :=
  (dat5 V c).arrAt_eq_of_cover 3 _ (fun t _ => written_block V c t) tiled

end Cert.GraphNet.Region5

end
-- ==== Proof.Stretch5.lean ====
/-
  Stretch 5 of host operations and region 5, buffer by buffer.

  The stretch computes the neighbour sums of the current node features from the sources and destinations the first
  stretch left, and writes nothing else that is read later.  The region then overwrites its output array with the
  layer of the arrays it finds and leaves every other buffer alone.
-/
import proofs.«136489_j50732153701091_1_alg».proof.Proof.Region5
import proofs.«136489_j50732153701091_1_alg».proof.Proof.Neighbours
import proofs.«136489_j50732153701091_1_alg».proof.Proof.LibHostKept
import Idealize.ShloMosaic.Lib.StableHlo.Run

set_option maxRecDepth 16384

noncomputable section

namespace Cert.GraphNet.Kernel

open Idealize.ShloMosaic Idealize.ShloMosaic.TcCoe Idealize.SL.Sem Idealize.ShloMosaic.StableHlo
open Cert.KernelIdeal Cert.KernelIdeal.Gen Cert.GraphNet Cert.Kept

variable (m : (ℓ : Loc nD τ sig) → Buf (Elt Ideal) ℓ) (ρ : Dev nD → PrngReg)

set_option maxHeartbeats 4000000 in
/-- After the stretch the buffer of the neighbour sums holds them, of the features, sources and destinations found. -/
theorem agg5 (c : Dev nD) : W11 m ρ c (Proc.devRef .tc main_v68)
    = agg128 (W10 m ρ c (Proc.devRef .tc main_v1)) (W10 m ρ c (Proc.devRef .tc main_v3)) (W10 m ρ c (Proc.devRef .tc main_v58)) := by
  show StableHlo.after hostOps5 (W10 m ρ c) (Proc.devRef .tc main_v68) = _
  simp only [hostOps5]
  after_results_simp
  rfl
/-- The stretch does not write `main_v58`. -/
theorem keep5_main_v58 (c : Dev nD) : W11 m ρ c (Proc.devRef .tc main_v58) = W10 m ρ c (Proc.devRef .tc main_v58) := by
  show StableHlo.after hostOps5 (W10 m ρ c) (Proc.devRef .tc main_v58) = W10 m ρ c (Proc.devRef .tc main_v58)
  host_kept hostOps5
/-- The stretch does not write `main_arg9`. -/
theorem keep5_main_arg9 (c : Dev nD) : W11 m ρ c (Proc.devRef .tc main_arg9) = W10 m ρ c (Proc.devRef .tc main_arg9) := by
  show StableHlo.after hostOps5 (W10 m ρ c) (Proc.devRef .tc main_arg9) = W10 m ρ c (Proc.devRef .tc main_arg9)
  host_kept hostOps5
/-- The stretch does not write `main_v1`. -/
theorem keep5_main_v1 (c : Dev nD) : W11 m ρ c (Proc.devRef .tc main_v1) = W10 m ρ c (Proc.devRef .tc main_v1) := by
  show StableHlo.after hostOps5 (W10 m ρ c) (Proc.devRef .tc main_v1) = W10 m ρ c (Proc.devRef .tc main_v1)
  host_kept hostOps5
/-- The stretch does not write `main_v3`. -/
theorem keep5_main_v3 (c : Dev nD) : W11 m ρ c (Proc.devRef .tc main_v3) = W10 m ρ c (Proc.devRef .tc main_v3) := by
  show StableHlo.after hostOps5 (W10 m ρ c) (Proc.devRef .tc main_v3) = W10 m ρ c (Proc.devRef .tc main_v3)
  host_kept hostOps5

/-- The region's output array, from the contents it was entered with. -/
theorem out5 (c : Dev nD) : W12 m ρ c (Proc.devRef .tc main_v69)
    = layer (W11 m ρ c (Proc.devRef .tc main_v58)) (W11 m ρ c (Proc.devRef .tc main_v68)) (W11 m ρ c (Proc.devRef .tc main_arg9)) :=
  (W12_arr m ρ c 3).trans (Region5.output (V11 m ρ) c)
/-- The region does not write `main_v1`. -/
theorem carry5_main_v1 (c : Dev nD) : W12 m ρ c (Proc.devRef .tc main_v1) = W11 m ρ c (Proc.devRef .tc main_v1) := W12_of_ne m ρ c main_v1 (by decide)
/-- The region does not write `main_v3`. -/
theorem carry5_main_v3 (c : Dev nD) : W12 m ρ c (Proc.devRef .tc main_v3) = W11 m ρ c (Proc.devRef .tc main_v3) := W12_of_ne m ρ c main_v3 (by decide)

end Cert.GraphNet.Kernel

end
-- ==== Proof.KernelValue.lean ====
/-
  The kernel's program read from boundary to boundary: what the result buffers hold after each of the six layers.

  The program alternates stretches of host operations with device regions.  A stretch computes the neighbour sum
  of the current node features (the first stretch also cuts the edge table into sources and destinations, which
  every later stretch reads again) and leaves every other buffer alone; a region overwrites its output array with
  the layer of the arrays it finds and leaves every other buffer alone.  So after layer `k` the output buffer holds
  `feat k`, defined by the network's recursion, the sources and destinations are still there, and the weight
  matrices still to come are the launch contents.  Each step below joins one stretch's and one region's facts.
-/
import proofs.«136489_j50732153701091_1_alg».proof.Proof.Stretch0
import proofs.«136489_j50732153701091_1_alg».proof.Proof.Stretch1
import proofs.«136489_j50732153701091_1_alg».proof.Proof.Stretch2
import proofs.«136489_j50732153701091_1_alg».proof.Proof.Stretch3
import proofs.«136489_j50732153701091_1_alg».proof.Proof.Stretch4
import proofs.«136489_j50732153701091_1_alg».proof.Proof.Stretch5

set_option maxRecDepth 16384

noncomputable section

namespace Cert.GraphNet.Kernel

open Idealize.ShloMosaic Idealize.ShloMosaic.TcCoe Idealize.SL.Sem Idealize.ShloMosaic.StableHlo
open Cert.KernelIdeal Cert.KernelIdeal.Gen Cert.GraphNet

variable (m : (ℓ : Loc nD τ sig) → Buf (Elt Ideal) ℓ) (ρ : Dev nD → PrngReg)

/-- The node features after each layer, from the launch contents. -/
def feat1 (c : Dev nD) : FVec Ideal Nodes128 .f32 :=
  firstLayer (m ((c : Thread nD τ).loc main_arg0)) (agg48 (src m c) (dst m c) (m ((c : Thread nD τ).loc main_arg0))) (m ((c : Thread nD τ).loc main_arg4)) (m ((c : Thread nD τ).loc main_arg3))
def feat2 (c : Dev nD) : FVec Ideal Nodes128 .f32 := layer (feat1 m c) (agg128 (src m c) (dst m c) (feat1 m c)) (m ((c : Thread nD τ).loc main_arg5))
def feat3 (c : Dev nD) : FVec Ideal Nodes128 .f32 := layer (feat2 m c) (agg128 (src m c) (dst m c) (feat2 m c)) (m ((c : Thread nD τ).loc main_arg6))
def feat4 (c : Dev nD) : FVec Ideal Nodes128 .f32 := layer (feat3 m c) (agg128 (src m c) (dst m c) (feat3 m c)) (m ((c : Thread nD τ).loc main_arg7))
def feat5 (c : Dev nD) : FVec Ideal Nodes128 .f32 := layer (feat4 m c) (agg128 (src m c) (dst m c) (feat4 m c)) (m ((c : Thread nD τ).loc main_arg8))
def feat6 (c : Dev nD) : FVec Ideal Nodes128 .f32 := layer (feat5 m c) (agg128 (src m c) (dst m c) (feat5 m c)) (m ((c : Thread nD τ).loc main_arg9))

/-- The last one is the whole network. -/
theorem feat6_eq (c : Dev nD) :
    feat6 m c = net (agg48 (src m c) (dst m c)) (agg128 (src m c) (dst m c)) (m ((c : Thread nD τ).loc main_arg0)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) := rfl

/-- Equal arrays give equal layers and equal neighbour sums. -/
theorem firstLayer_congr {x x' a a' : FVec Ideal Nodes48 .f32} {W W' U U' : FVec Ideal Mat48 .f32}
    (e1 : x = x') (e2 : a = a') (e3 : W = W') (e4 : U = U') : firstLayer x a W U = firstLayer x' a' W' U' := by
  subst e1 e2 e3 e4; rfl
theorem layer_congr {h h' a a' : FVec Ideal Nodes128 .f32} {W W' : FVec Ideal Mat128 .f32}
    (e1 : h = h') (e2 : a = a') (e3 : W = W') : layer h a W = layer h' a' W' := by
  subst e1 e2 e3; rfl
theorem agg128_congr {s s' d d' : Vec Ideal S1600000 .i32} {h h' : Vec Ideal S100000x128 .f32}
    (e1 : s = s') (e2 : d = d') (e3 : h = h') : agg128 s d h = agg128 s' d' h' := by
  subst e1 e2 e3; rfl

/-! ## After the first layer -/

theorem value1 (c : Dev nD) : W2 m ρ c (Proc.devRef .tc main_v14) = feat1 m c :=
  (out0 m ρ c).trans (firstLayer_congr (entry0_arg0 m ρ c) (entry0_agg m ρ c) (entry0_arg4 m ρ c) (entry0_arg3 m ρ c))
theorem src1 (c : Dev nD) : W2 m ρ c (Proc.devRef .tc main_v1) = src m c := (carry0_main_v1 m ρ c).trans (entry0_src m ρ c)
theorem dst1 (c : Dev nD) : W2 m ρ c (Proc.devRef .tc main_v3) = dst m c := (carry0_main_v3 m ρ c).trans (entry0_dst m ρ c)
theorem arg1_5 (c : Dev nD) : W2 m ρ c (Proc.devRef .tc main_arg5) = (m ((c : Thread nD τ).loc main_arg5)) := (carry0_main_arg5 m ρ c).trans (entry0_arg5 m ρ c)
theorem arg1_6 (c : Dev nD) : W2 m ρ c (Proc.devRef .tc main_arg6) = (m ((c : Thread nD τ).loc main_arg6)) := (carry0_main_arg6 m ρ c).trans (entry0_arg6 m ρ c)
theorem arg1_7 (c : Dev nD) : W2 m ρ c (Proc.devRef .tc main_arg7) = (m ((c : Thread nD τ).loc main_arg7)) := (carry0_main_arg7 m ρ c).trans (entry0_arg7 m ρ c)
theorem arg1_8 (c : Dev nD) : W2 m ρ c (Proc.devRef .tc main_arg8) = (m ((c : Thread nD τ).loc main_arg8)) := (carry0_main_arg8 m ρ c).trans (entry0_arg8 m ρ c)
theorem arg1_9 (c : Dev nD) : W2 m ρ c (Proc.devRef .tc main_arg9) = (m ((c : Thread nD τ).loc main_arg9)) := (carry0_main_arg9 m ρ c).trans (entry0_arg9 m ρ c)

/-! ## After layer 2 -/

theorem value2 (c : Dev nD) : W4 m ρ c (Proc.devRef .tc main_v25) = feat2 m c :=
  (out1 m ρ c).trans (layer_congr ((keep1_main_v14 m ρ c).trans (value1 m ρ c))
    ((agg1 m ρ c).trans (agg128_congr (src1 m ρ c) (dst1 m ρ c) (value1 m ρ c)))
    ((keep1_main_arg5 m ρ c).trans (arg1_5 m ρ c)))
theorem src2 (c : Dev nD) : W4 m ρ c (Proc.devRef .tc main_v1) = src m c := (carry1_main_v1 m ρ c).trans ((keep1_main_v1 m ρ c).trans (src1 m ρ c))
theorem dst2 (c : Dev nD) : W4 m ρ c (Proc.devRef .tc main_v3) = dst m c := (carry1_main_v3 m ρ c).trans ((keep1_main_v3 m ρ c).trans (dst1 m ρ c))
theorem arg2_6 (c : Dev nD) : W4 m ρ c (Proc.devRef .tc main_arg6) = (m ((c : Thread nD τ).loc main_arg6)) := (carry1_main_arg6 m ρ c).trans ((keep1_main_arg6 m ρ c).trans (arg1_6 m ρ c))
theorem arg2_7 (c : Dev nD) : W4 m ρ c (Proc.devRef .tc main_arg7) = (m ((c : Thread nD τ).loc main_arg7)) := (carry1_main_arg7 m ρ c).trans ((keep1_main_arg7 m ρ c).trans (arg1_7 m ρ c))
theorem arg2_8 (c : Dev nD) : W4 m ρ c (Proc.devRef .tc main_arg8) = (m ((c : Thread nD τ).loc main_arg8)) := (carry1_main_arg8 m ρ c).trans ((keep1_main_arg8 m ρ c).trans (arg1_8 m ρ c))
theorem arg2_9 (c : Dev nD) : W4 m ρ c (Proc.devRef .tc main_arg9) = (m ((c : Thread nD τ).loc main_arg9)) := (carry1_main_arg9 m ρ c).trans ((keep1_main_arg9 m ρ c).trans (arg1_9 m ρ c))

/-! ## After layer 3 -/

theorem value3 (c : Dev nD) : W6 m ρ c (Proc.devRef .tc main_v36) = feat3 m c :=
  (out2 m ρ c).trans (layer_congr ((keep2_main_v25 m ρ c).trans (value2 m ρ c))
    ((agg2 m ρ c).trans (agg128_congr (src2 m ρ c) (dst2 m ρ c) (value2 m ρ c)))
    ((keep2_main_arg6 m ρ c).trans (arg2_6 m ρ c)))
theorem src3 (c : Dev nD) : W6 m ρ c (Proc.devRef .tc main_v1) = src m c := (carry2_main_v1 m ρ c).trans ((keep2_main_v1 m ρ c).trans (src2 m ρ c))
theorem dst3 (c : Dev nD) : W6 m ρ c (Proc.devRef .tc main_v3) = dst m c := (carry2_main_v3 m ρ c).trans ((keep2_main_v3 m ρ c).trans (dst2 m ρ c))
theorem arg3_7 (c : Dev nD) : W6 m ρ c (Proc.devRef .tc main_arg7) = (m ((c : Thread nD τ).loc main_arg7)) := (carry2_main_arg7 m ρ c).trans ((keep2_main_arg7 m ρ c).trans (arg2_7 m ρ c))
theorem arg3_8 (c : Dev nD) : W6 m ρ c (Proc.devRef .tc main_arg8) = (m ((c : Thread nD τ).loc main_arg8)) := (carry2_main_arg8 m ρ c).trans ((keep2_main_arg8 m ρ c).trans (arg2_8 m ρ c))
theorem arg3_9 (c : Dev nD) : W6 m ρ c (Proc.devRef .tc main_arg9) = (m ((c : Thread nD τ).loc main_arg9)) := (carry2_main_arg9 m ρ c).trans ((keep2_main_arg9 m ρ c).trans (arg2_9 m ρ c))

/-! ## After layer 4 -/

theorem value4 (c : Dev nD) : W8 m ρ c (Proc.devRef .tc main_v47) = feat4 m c :=
  (out3 m ρ c).trans (layer_congr ((keep3_main_v36 m ρ c).trans (value3 m ρ c))
    ((agg3 m ρ c).trans (agg128_congr (src3 m ρ c) (dst3 m ρ c) (value3 m ρ c)))
    ((keep3_main_arg7 m ρ c).trans (arg3_7 m ρ c)))
theorem src4 (c : Dev nD) : W8 m ρ c (Proc.devRef .tc main_v1) = src m c := (carry3_main_v1 m ρ c).trans ((keep3_main_v1 m ρ c).trans (src3 m ρ c))
theorem dst4 (c : Dev nD) : W8 m ρ c (Proc.devRef .tc main_v3) = dst m c := (carry3_main_v3 m ρ c).trans ((keep3_main_v3 m ρ c).trans (dst3 m ρ c))
theorem arg4_8 (c : Dev nD) : W8 m ρ c (Proc.devRef .tc main_arg8) = (m ((c : Thread nD τ).loc main_arg8)) := (carry3_main_arg8 m ρ c).trans ((keep3_main_arg8 m ρ c).trans (arg3_8 m ρ c))
theorem arg4_9 (c : Dev nD) : W8 m ρ c (Proc.devRef .tc main_arg9) = (m ((c : Thread nD τ).loc main_arg9)) := (carry3_main_arg9 m ρ c).trans ((keep3_main_arg9 m ρ c).trans (arg3_9 m ρ c))

/-! ## After layer 5 -/

theorem value5 (c : Dev nD) : W10 m ρ c (Proc.devRef .tc main_v58) = feat5 m c :=
  (out4 m ρ c).trans (layer_congr ((keep4_main_v47 m ρ c).trans (value4 m ρ c))
    ((agg4 m ρ c).trans (agg128_congr (src4 m ρ c) (dst4 m ρ c) (value4 m ρ c)))
    ((keep4_main_arg8 m ρ c).trans (arg4_8 m ρ c)))
theorem src5 (c : Dev nD) : W10 m ρ c (Proc.devRef .tc main_v1) = src m c := (carry4_main_v1 m ρ c).trans ((keep4_main_v1 m ρ c).trans (src4 m ρ c))
theorem dst5 (c : Dev nD) : W10 m ρ c (Proc.devRef .tc main_v3) = dst m c := (carry4_main_v3 m ρ c).trans ((keep4_main_v3 m ρ c).trans (dst4 m ρ c))
theorem arg5_9 (c : Dev nD) : W10 m ρ c (Proc.devRef .tc main_arg9) = (m ((c : Thread nD τ).loc main_arg9)) := (carry4_main_arg9 m ρ c).trans ((keep4_main_arg9 m ρ c).trans (arg4_9 m ρ c))

/-! ## After layer 6 -/

theorem value6 (c : Dev nD) : W12 m ρ c (Proc.devRef .tc main_v69) = feat6 m c :=
  (out5 m ρ c).trans (layer_congr ((keep5_main_v58 m ρ c).trans (value5 m ρ c))
    ((agg5 m ρ c).trans (agg128_congr (src5 m ρ c) (dst5 m ρ c) (value5 m ρ c)))
    ((keep5_main_arg9 m ρ c).trans (arg5_9 m ρ c)))

end Cert.GraphNet.Kernel

end
-- ==== Proof.RefRun.lean ====
/-
  The reference program's operations cut into six stretches, one per layer.

  Stretch 1 ends with the operation writing the first layer's output, and each later stretch is the 19 operations of
  one later layer.  Running two lists one after the other is running their concatenation, so the contents after the
  whole program are the contents after the six stretches in turn.
-/
import proofs.«136489_j50732153701091_1_alg».proof.Proof.RefOps

noncomputable section

namespace Cert.GraphNet.Ref

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The first layer: the edge table's two rows, the neighbour sum of the input, the two products, the rectifier, the sum. -/
abbrev seg1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x48_S1600000x1_S1600000x48_1_0_n_n_0_1_148 x i) : (⟨S100000x48, .f32⟩ : BufTy).Contents (Elt F) → (⟨S1600000x1, .i32⟩ : BufTy).Contents (Elt F) → (⟨S1600000x48, .f32⟩ : BufTy).Contents (Elt F)),
    nullary main_cst (constant S_ .f32 0x00000000#32),
    unary main_cst main_v11 (broadcastInDim S100000x48 ![] bcast_S_S100000x48 : (⟨S_, .f32⟩ : BufTy).Contents (Elt F) → (⟨S100000x48, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x48_S1600000x1_S1600000x48_1_0_0_1 x i u) : (⟨S100000x48, .f32⟩ : BufTy).Contents (Elt F) → (⟨S1600000x1, .i32⟩ : BufTy).Contents (Elt F) → (⟨S1600000x48, .f32⟩ : BufTy).Contents (Elt F) → (⟨S100000x48, .f32⟩ : BufTy).Contents (Elt F)),
    binary main_arg0 main_v13 main_v14 (addf : (⟨S100000x48, .f32⟩ : BufTy).Contents (Elt F) → (⟨S100000x48, .f32⟩ : BufTy).Contents (Elt F) → (⟨S100000x48, .f32⟩ : BufTy).Contents (Elt F)),
    binary main_v14 main_arg4 main_v15 ((fun l r => Host.dotGeneral dot_S100000x48_S48x128_S100000x128_1_0_0_1_n_n none l r) : (⟨S100000x48, .f32⟩ : BufTy).Contents (Elt F) → (⟨S48x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v15) (TRef.of (T := ⟨S100000x128, .f32⟩) main_call0_v0) (TRef.of (T := ⟨S100000x128, .f32⟩) main_v16) maximumf,
    binary main_arg0 main_arg3 main_v17 ((fun l r => Host.dotGeneral dot_S100000x48_S48x128_S100000x128_1_0_0_1_n_n none l r) : (⟨S100000x48, .f32⟩ : BufTy).Contents (Elt F) → (⟨S48x128, .f32⟩ : BufTy).Contents (Elt F) → (⟨S100000x128, .f32⟩ : BufTy).Contents (Elt F)),
    binary main_v16 main_v17 main_v18 (addf : (⟨S100000x128, .f32⟩ : BufTy).Contents (Elt F) → (⟨S100000x128, .f32⟩ : BufTy).Contents (Elt F) → (⟨S100000x128, .f32⟩ : BufTy).Contents (Elt F)) ]

/-- The second layer. -/
abbrev seg2 : List (HloOp τ sig (Elt F)) :=
  [ nullary main_c_1 (constantI S_ 32 0#32),
    unary main_c_1 main_v19 (broadcastInDim S1600000 ![] bcast_S_S1600000 : (⟨S_, .i32⟩ : BufTy).Contents (Elt F) → (⟨S1600000, .i32⟩ : BufTy).Contents (Elt F)),
    binary main_v1 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v21 (broadcastInDim S1600000 ![] bcast_S_S1600000 : (⟨S_, .i32⟩ : BufTy).Contents (Elt F) → (⟨S1600000, .i32⟩ : BufTy).Contents (Elt F)),
    binary main_v1 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_v1 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v18 main_v24 main_v25 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_3 (constant S_ .f32 0x00000000#32),
    unary main_cst_3 main_v26 (broadcastInDim S100000x128 ![] bcast_S_S100000x128 : (⟨S_, .f32⟩ : BufTy).Contents (Elt F) → (⟨S100000x128, .f32⟩ : BufTy).Contents (Elt F)),
    unary main_v3 main_v27 (broadcastInDim S1600000x1 ![0] bcast_S1600000_S1600000x1_0 : (⟨S1600000, .i32⟩ : BufTy).Contents (Elt F) → (⟨S1600000x1, .i32⟩ : BufTy).Contents (Elt F)),
    ternary main_v26 main_v27 main_v25 main_v28 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v18 main_v28 main_v29 (addf : (⟨S100000x128, .f32⟩ : BufTy).Contents (Elt F) → (⟨S100000x128, .f32⟩ : BufTy).Contents (Elt F) → (⟨S100000x128, .f32⟩ : BufTy).Contents (Elt F)),
    binary main_v29 main_arg5 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v30) (TRef.of (T := ⟨S100000x128, .f32⟩) main_call1_v0) (TRef.of (T := ⟨S100000x128, .f32⟩) main_v31) maximumf,
    binary main_v31 main_v18 main_v32 (addf : (⟨S100000x128, .f32⟩ : BufTy).Contents (Elt F) → (⟨S100000x128, .f32⟩ : BufTy).Contents (Elt F) → (⟨S100000x128, .f32⟩ : BufTy).Contents (Elt F)) ]

/-- The third layer. -/
abbrev seg3 : List (HloOp τ sig (Elt F)) :=
  [ nullary main_c_4 (constantI S_ 32 0#32),
    unary main_c_4 main_v33 (broadcastInDim S1600000 ![] bcast_S_S1600000 : (⟨S_, .i32⟩ : BufTy).Contents (Elt F) → (⟨S1600000, .i32⟩ : BufTy).Contents (Elt F)),
    binary main_v1 main_v33 main_v34 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v35 (broadcastInDim S1600000 ![] bcast_S_S1600000 : (⟨S_, .i32⟩ : BufTy).Contents (Elt F) → (⟨S1600000, .i32⟩ : BufTy).Contents (Elt F)),
    binary main_v1 main_v35 main_v36 (addi : (⟨S1600000, .i32⟩ : BufTy).Contents (Elt F) → (⟨S1600000, .i32⟩ : BufTy).Contents (Elt F) → (⟨S1600000, .i32⟩ : BufTy).Contents (Elt F)),
    ternary main_v34 main_v36 main_v1 main_v37 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v37 main_v38 (broadcastInDim S1600000x1 ![0] bcast_S1600000_S1600000x1_0 : (⟨S1600000, .i32⟩ : BufTy).Contents (Elt F) → (⟨S1600000x1, .i32⟩ : BufTy).Contents (Elt F)),
    binary main_v32 main_v38 main_v39 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_6 (constant S_ .f32 0x00000000#32),
    unary main_cst_6 main_v40 (broadcastInDim S100000x128 ![] bcast_S_S100000x128 : (⟨S_, .f32⟩ : BufTy).Contents (Elt F) → (⟨S100000x128, .f32⟩ : BufTy).Contents (Elt F)),
    unary main_v3 main_v41 (broadcastInDim S1600000x1 ![0] bcast_S1600000_S1600000x1_0 : (⟨S1600000, .i32⟩ : BufTy).Contents (Elt F) → (⟨S1600000x1, .i32⟩ : BufTy).Contents (Elt F)),
    ternary main_v40 main_v41 main_v39 main_v42 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v32 main_v42 main_v43 (addf : (⟨S100000x128, .f32⟩ : BufTy).Contents (Elt F) → (⟨S100000x128, .f32⟩ : BufTy).Contents (Elt F) → (⟨S100000x128, .f32⟩ : BufTy).Contents (Elt F)),
    binary main_v43 main_arg6 main_v44 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v44) (TRef.of (T := ⟨S100000x128, .f32⟩) main_call2_v0) (TRef.of (T := ⟨S100000x128, .f32⟩) main_v45) maximumf,
    binary main_v45 main_v32 main_v46 (addf : (⟨S100000x128, .f32⟩ : BufTy).Contents (Elt F) → (⟨S100000x128, .f32⟩ : BufTy).Contents (Elt F) → (⟨S100000x128, .f32⟩ : BufTy).Contents (Elt F)) ]

/-- The fourth layer. -/
abbrev seg4 : List (HloOp τ sig (Elt F)) :=
  [ nullary main_c_7 (constantI S_ 32 0#32),
    unary main_c_7 main_v47 (broadcastInDim S1600000 ![] bcast_S_S1600000 : (⟨S_, .i32⟩ : BufTy).Contents (Elt F) → (⟨S1600000, .i32⟩ : BufTy).Contents (Elt F)),
    binary main_v1 main_v47 main_v48 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v49 (broadcastInDim S1600000 ![] bcast_S_S1600000 : (⟨S_, .i32⟩ : BufTy).Contents (Elt F) → (⟨S1600000, .i32⟩ : BufTy).Contents (Elt F)),
    binary main_v1 main_v49 main_v50 (addi : (⟨S1600000, .i32⟩ : BufTy).Contents (Elt F) → (⟨S1600000, .i32⟩ : BufTy).Contents (Elt F) → (⟨S1600000, .i32⟩ : BufTy).Contents (Elt F)),
    ternary main_v48 main_v50 main_v1 main_v51 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v51 main_v52 (broadcastInDim S1600000x1 ![0] bcast_S1600000_S1600000x1_0 : (⟨S1600000, .i32⟩ : BufTy).Contents (Elt F) → (⟨S1600000x1, .i32⟩ : BufTy).Contents (Elt F)),
    binary main_v46 main_v52 main_v53 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_9 (constant S_ .f32 0x00000000#32),
    unary main_cst_9 main_v54 (broadcastInDim S100000x128 ![] bcast_S_S100000x128 : (⟨S_, .f32⟩ : BufTy).Contents (Elt F) → (⟨S100000x128, .f32⟩ : BufTy).Contents (Elt F)),
    unary main_v3 main_v55 (broadcastInDim S1600000x1 ![0] bcast_S1600000_S1600000x1_0 : (⟨S1600000, .i32⟩ : BufTy).Contents (Elt F) → (⟨S1600000x1, .i32⟩ : BufTy).Contents (Elt F)),
    ternary main_v54 main_v55 main_v53 main_v56 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v46 main_v56 main_v57 (addf : (⟨S100000x128, .f32⟩ : BufTy).Contents (Elt F) → (⟨S100000x128, .f32⟩ : BufTy).Contents (Elt F) → (⟨S100000x128, .f32⟩ : BufTy).Contents (Elt F)),
    binary main_v57 main_arg7 main_v58 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v58) (TRef.of (T := ⟨S100000x128, .f32⟩) main_call3_v0) (TRef.of (T := ⟨S100000x128, .f32⟩) main_v59) maximumf,
    binary main_v59 main_v46 main_v60 (addf : (⟨S100000x128, .f32⟩ : BufTy).Contents (Elt F) → (⟨S100000x128, .f32⟩ : BufTy).Contents (Elt F) → (⟨S100000x128, .f32⟩ : BufTy).Contents (Elt F)) ]

/-- The fifth layer. -/
abbrev seg5 : List (HloOp τ sig (Elt F)) :=
  [ nullary main_c_10 (constantI S_ 32 0#32),
    unary main_c_10 main_v61 (broadcastInDim S1600000 ![] bcast_S_S1600000 : (⟨S_, .i32⟩ : BufTy).Contents (Elt F) → (⟨S1600000, .i32⟩ : BufTy).Contents (Elt F)),
    binary main_v1 main_v61 main_v62 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v63 (broadcastInDim S1600000 ![] bcast_S_S1600000 : (⟨S_, .i32⟩ : BufTy).Contents (Elt F) → (⟨S1600000, .i32⟩ : BufTy).Contents (Elt F)),
    binary main_v1 main_v63 main_v64 (addi : (⟨S1600000, .i32⟩ : BufTy).Contents (Elt F) → (⟨S1600000, .i32⟩ : BufTy).Contents (Elt F) → (⟨S1600000, .i32⟩ : BufTy).Contents (Elt F)),
    ternary main_v62 main_v64 main_v1 main_v65 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v65 main_v66 (broadcastInDim S1600000x1 ![0] bcast_S1600000_S1600000x1_0 : (⟨S1600000, .i32⟩ : BufTy).Contents (Elt F) → (⟨S1600000x1, .i32⟩ : BufTy).Contents (Elt F)),
    binary main_v60 main_v66 main_v67 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_12 (constant S_ .f32 0x00000000#32),
    unary main_cst_12 main_v68 (broadcastInDim S100000x128 ![] bcast_S_S100000x128 : (⟨S_, .f32⟩ : BufTy).Contents (Elt F) → (⟨S100000x128, .f32⟩ : BufTy).Contents (Elt F)),
    unary main_v3 main_v69 (broadcastInDim S1600000x1 ![0] bcast_S1600000_S1600000x1_0 : (⟨S1600000, .i32⟩ : BufTy).Contents (Elt F) → (⟨S1600000x1, .i32⟩ : BufTy).Contents (Elt F)),
    ternary main_v68 main_v69 main_v67 main_v70 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v60 main_v70 main_v71 (addf : (⟨S100000x128, .f32⟩ : BufTy).Contents (Elt F) → (⟨S100000x128, .f32⟩ : BufTy).Contents (Elt F) → (⟨S100000x128, .f32⟩ : BufTy).Contents (Elt F)),
    binary main_v71 main_arg8 main_v72 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v72) (TRef.of (T := ⟨S100000x128, .f32⟩) main_call4_v0) (TRef.of (T := ⟨S100000x128, .f32⟩) main_v73) maximumf,
    binary main_v73 main_v60 main_v74 (addf : (⟨S100000x128, .f32⟩ : BufTy).Contents (Elt F) → (⟨S100000x128, .f32⟩ : BufTy).Contents (Elt F) → (⟨S100000x128, .f32⟩ : BufTy).Contents (Elt F)) ]

/-- The sixth layer. -/
abbrev seg6 : List (HloOp τ sig (Elt F)) :=
  [ nullary main_c_13 (constantI S_ 32 0#32),
    unary main_c_13 main_v75 (broadcastInDim S1600000 ![] bcast_S_S1600000 : (⟨S_, .i32⟩ : BufTy).Contents (Elt F) → (⟨S1600000, .i32⟩ : BufTy).Contents (Elt F)),
    binary main_v1 main_v75 main_v76 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v77 (broadcastInDim S1600000 ![] bcast_S_S1600000 : (⟨S_, .i32⟩ : BufTy).Contents (Elt F) → (⟨S1600000, .i32⟩ : BufTy).Contents (Elt F)),
    binary main_v1 main_v77 main_v78 (addi : (⟨S1600000, .i32⟩ : BufTy).Contents (Elt F) → (⟨S1600000, .i32⟩ : BufTy).Contents (Elt F) → (⟨S1600000, .i32⟩ : BufTy).Contents (Elt F)),
    ternary main_v76 main_v78 main_v1 main_v79 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v79 main_v80 (broadcastInDim S1600000x1 ![0] bcast_S1600000_S1600000x1_0 : (⟨S1600000, .i32⟩ : BufTy).Contents (Elt F) → (⟨S1600000x1, .i32⟩ : BufTy).Contents (Elt F)),
    binary main_v74 main_v80 main_v81 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_15 (constant S_ .f32 0x00000000#32),
    unary main_cst_15 main_v82 (broadcastInDim S100000x128 ![] bcast_S_S100000x128 : (⟨S_, .f32⟩ : BufTy).Contents (Elt F) → (⟨S100000x128, .f32⟩ : BufTy).Contents (Elt F)),
    unary main_v3 main_v83 (broadcastInDim S1600000x1 ![0] bcast_S1600000_S1600000x1_0 : (⟨S1600000, .i32⟩ : BufTy).Contents (Elt F) → (⟨S1600000x1, .i32⟩ : BufTy).Contents (Elt F)),
    ternary main_v82 main_v83 main_v81 main_v84 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v74 main_v84 main_v85 (addf : (⟨S100000x128, .f32⟩ : BufTy).Contents (Elt F) → (⟨S100000x128, .f32⟩ : BufTy).Contents (Elt F) → (⟨S100000x128, .f32⟩ : BufTy).Contents (Elt F)),
    binary main_v85 main_arg9 main_v86 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x128, .f32⟩) main_call5_v0) (broadcastInDim S100000x128 ![] bcast_S_S100000x128),
    TRef.binary (TRef.of (T := ⟨S100000x128, .f32⟩) main_v86) (TRef.of (T := ⟨S100000x128, .f32⟩) main_call5_v0) (TRef.of (T := ⟨S100000x128, .f32⟩) main_v87) maximumf,
    binary main_v87 main_v74 main_v88 (addf : (⟨S100000x128, .f32⟩ : BufTy).Contents (Elt F) → (⟨S100000x128, .f32⟩ : BufTy).Contents (Elt F) → (⟨S100000x128, .f32⟩ : BufTy).Contents (Elt F)) ]

/-- The whole list is the six stretches in order. -/
theorem ops_eq : (ops : List (HloOp τ sig (Elt F))) = seg1 ++ (seg2 ++ (seg3 ++ (seg4 ++ (seg5 ++ seg6)))) := rfl

/-- The contents after two lists in turn are the contents after their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The contents after the whole program: the six stretches applied in turn. -/
theorem after_ops (V : Valuation τ sig (Elt F)) :
    after (ops : List (HloOp τ sig (Elt F))) V = after seg6 (after seg5 (after seg4 (after seg3 (after seg2 (after seg1 V))))) := by
  rw [ops_eq, after_append, after_append, after_append, after_append, after_append]

end Cert.GraphNet.Ref

end
-- ==== Proof.LibHostProduct.lean ====
/-
  The host's matrix product and two of its broadcasts, read at an index, at the ideal values.

  For `A : [m, k]` and `B : [k, n]`, the host's product contracting the second axis of `A` with the first of `B` has at
  `(a, b)` the sum over `c` of `A (a, c) · B (c, b)`: it has no accumulator, so this is the whole entry.  An `[a, 1]`
  column laid along the columns of an `[a, b]` array has at `(p, c)` the column's entry `p`, and a vector of length `n`
  laid as a `[1, n]` row has at `(0, q)` its entry `q`.
-/
import Idealize.ShloMosaic.Lib.Pipeline.Value
import Idealize.ShloMosaic.Lib.ValueIdx
import Idealize.ShloMosaic.PureOps.Ideal.Laws

noncomputable section

namespace Cert.HostProduct

open Idealize.ShloMosaic Idealize.ShloMosaic.ValueIdx

/-- The host's `A · B`, read at `(a, b)`: the sum over the shared coordinate of the products. -/
theorem dotGeneral_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

variable {α : Type}

/-- An `[a, 1]` column laid along the columns of an `[a, b]` array: entry `(p, c)` is the column's entry `p`. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ =>
    show (0 : ℕ) = if (1 : ℕ) = 1 then 0 else _
    simp

/-- A vector laid as a one-row matrix by the host: entry `(0, q)` is the vector's entry `q`. -/
theorem broadcastInDim_row_apply {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v (ix2 (0 : Fin 1) q) (ix1 q) ?_
  intro ax
  match ax with
  | ⟨0, _⟩ =>
    show q.val = if n = 1 then 0 else q.val
    split
    · have := q.isLt; omega
    · rfl

end Cert.HostProduct

end
-- ==== Proof.RefLayers.lean ====
/-
  The host's lines of one layer, as the layer of the network, at the ideal values.

  A later layer's lines compute `max ((h + a) · W) 0 + h` entry by entry: the sum and the maximum act at each entry,
  the zero is a scalar constant laid over the array, and the host's product is the plain sum over the shared
  coordinate.  The first layer's lines compute `max ((x + a) · W1) 0 + x · Wd` the same way, with two products.
-/
import proofs.«136489_j50732153701091_1_alg».proof.Proof.Gen.ReferenceIdeal
import proofs.«136489_j50732153701091_1_alg».proof.Proof.Spec
import proofs.«136489_j50732153701091_1_alg».proof.Proof.LibHostProduct
import Idealize.ShloMosaic.Lib.Pipeline.Value
import Idealize.ShloMosaic.Lib.ValueIdx
import Idealize.ShloMosaic.PureOps.Ideal.Laws

noncomputable section

namespace Cert.GraphNet.Ref

open Cert.ReferenceIdeal Cert.ReferenceIdeal.Gen Idealize.ShloMosaic Idealize.ShloMosaic.ValueIdx

/-- The host's 100000 × 48 by 48 × 128 product, at `(p, q)`. -/
theorem product48 (A : FVec Ideal S100000x48 .f32) (B : FVec Ideal S48x128 .f32) (p : Fin 100000) (q : Fin 128) :
    Host.dotGeneral dot_S100000x48_S48x128_S100000x128_1_0_0_1_n_n none A B (ix2 p q) = ∑ k : Fin 48, A (ix2 p k) * B (ix2 k q) :=
  Cert.HostProduct.dotGeneral_nn_apply dot_S100000x48_S48x128_S100000x128_1_0_0_1_n_n_wf none A B p q

/-- The host's 100000 × 128 by 128 × 128 product, at `(p, q)`. -/
theorem product128 (A : FVec Ideal S100000x128 .f32) (B : FVec Ideal S128x128 .f32) (p : Fin 100000) (q : Fin 128) :
    Host.dotGeneral dot_S100000x128_S128x128_S100000x128_1_0_0_1_n_n none A B (ix2 p q) = ∑ k : Fin 128, A (ix2 p k) * B (ix2 k q) :=
  Cert.HostProduct.dotGeneral_nn_apply dot_S100000x128_S128x128_S100000x128_1_0_0_1_n_n_wf none A B p q

/-- The scalar zero laid over the 100000 × 128 array reads the zero word at every entry. -/
theorem zeros_apply (i : S100000x128.Idx) :
    broadcastInDim S100000x128 ![] bcast_S_S100000x128 (constant (F := Ideal) S_ .f32 0x00000000#32) i = zeroWord :=
  (broadcastInDim_apply ![] bcast_S_S100000x128 (constant (F := Ideal) S_ .f32 0x00000000#32) i (fun a => a.elim0)
    (fun a => a.elim0)).trans rfl

/-- A later layer's host lines are the layer. -/
theorem later_host (h a : FVec Ideal S100000x128 .f32) (W : FVec Ideal S128x128 .f32) :
    addf (maximumf (Host.dotGeneral dot_S100000x128_S128x128_S100000x128_1_0_0_1_n_n none (addf h a) W)
        (broadcastInDim S100000x128 ![] bcast_S_S100000x128 (constant (F := Ideal) S_ .f32 0x00000000#32))) h
      = layer h a W := by
  funext i
  obtain ⟨p, q, rfl⟩ : ∃ (p : Fin 100000) (q : Fin 128), i = ix2 p q := ⟨i 0, i 1, eq_ix2 i⟩
  show max (Host.dotGeneral dot_S100000x128_S128x128_S100000x128_1_0_0_1_n_n none (addf h a) W (ix2 p q))
      (broadcastInDim S100000x128 ![] bcast_S_S100000x128 (constant (F := Ideal) S_ .f32 0x00000000#32) (ix2 p q)) + h (ix2 p q)
    = layerAt h a W p q
  rw [product128, zeros_apply]
  rfl

/-- The first layer's host lines are the first layer. -/
theorem first_host (x a : FVec Ideal S100000x48 .f32) (W1 Wd : FVec Ideal S48x128 .f32) :
    addf (maximumf (Host.dotGeneral dot_S100000x48_S48x128_S100000x128_1_0_0_1_n_n none (addf x a) W1)
        (broadcastInDim S100000x128 ![] bcast_S_S100000x128 (constant (F := Ideal) S_ .f32 0x00000000#32)))
      (Host.dotGeneral dot_S100000x48_S48x128_S100000x128_1_0_0_1_n_n none x Wd)
      = firstLayer x a W1 Wd := by
  funext i
  obtain ⟨p, q, rfl⟩ : ∃ (p : Fin 100000) (q : Fin 128), i = ix2 p q := ⟨i 0, i 1, eq_ix2 i⟩
  show max (Host.dotGeneral dot_S100000x48_S48x128_S100000x128_1_0_0_1_n_n none (addf x a) W1 (ix2 p q))
      (broadcastInDim S100000x128 ![] bcast_S_S100000x128 (constant (F := Ideal) S_ .f32 0x00000000#32) (ix2 p q))
    + Host.dotGeneral dot_S100000x48_S48x128_S100000x128_1_0_0_1_n_n none x Wd (ix2 p q)
    = firstLayerAt x a W1 Wd p q
  rw [product48, product48, zeros_apply]
  rfl

end Cert.GraphNet.Ref

end
-- ==== Proof.RefStretch.lean ====
/-
  Each stretch of the reference program, read back from arbitrary contents `V` before it.

  Stretch 1 leaves the first layer of the input in its output buffer, and the edge table's two rows (sources,
  destinations) in theirs.  Each later stretch leaves in its output buffer the layer of the previous output, of its
  neighbour sum over those sources and destinations, and of its weight matrix.  A stretch writes only its own values'
  buffers: the sources, the destinations and the weight matrices that later stretches read are kept.
-/
import proofs.«136489_j50732153701091_1_alg».proof.Proof.RefRun
import proofs.«136489_j50732153701091_1_alg».proof.Proof.RefLayers
import proofs.«136489_j50732153701091_1_alg».proof.Proof.Neighbours
import proofs.«136489_j50732153701091_1_alg».proof.Proof.LibHostKept

noncomputable section

namespace Cert.GraphNet.Ref

open Cert.ReferenceIdeal Cert.ReferenceIdeal.Gen Idealize.ShloMosaic Idealize.ShloMosaic.TcCoe Idealize.SL.Sem Idealize.ShloMosaic.StableHlo
open Cert.Kept

variable (V : Valuation τ sig (Elt Ideal))

/-! ## Stretch 1 -/

set_option maxRecDepth 8192 in
/-- The sources: row 0 of the edge table. -/
theorem seg1_src : after seg1 V (Proc.devRef .tc main_v1) = sources (V (Proc.devRef .tc main_arg1)) := by
  after_results
  rfl

set_option maxRecDepth 8192 in
/-- The destinations: row 1 of the edge table. -/
theorem seg1_dst : after seg1 V (Proc.devRef .tc main_v3) = destinations (V (Proc.devRef .tc main_arg1)) := by
  after_results
  rfl

set_option maxRecDepth 8192 in
set_option maxHeartbeats 2000000 in
/-- The first layer of the input. -/
theorem seg1_out : after seg1 V (Proc.devRef .tc main_v18)
    = firstLayer (V (Proc.devRef .tc main_arg0))
        (agg48 (sources (V (Proc.devRef .tc main_arg1))) (destinations (V (Proc.devRef .tc main_arg1))) (V (Proc.devRef .tc main_arg0)))
        (V (Proc.devRef .tc main_arg4)) (V (Proc.devRef .tc main_arg3)) := by
  after_results_simp
  exact first_host (V (Proc.devRef .tc main_arg0))
    (agg48 (sources (V (Proc.devRef .tc main_arg1))) (destinations (V (Proc.devRef .tc main_arg1))) (V (Proc.devRef .tc main_arg0)))
    (V (Proc.devRef .tc main_arg4)) (V (Proc.devRef .tc main_arg3))

theorem seg1_arg5 : after seg1 V (Proc.devRef .tc main_arg5) = V (Proc.devRef .tc main_arg5) := by host_kept seg1
theorem seg1_arg6 : after seg1 V (Proc.devRef .tc main_arg6) = V (Proc.devRef .tc main_arg6) := by host_kept seg1
theorem seg1_arg7 : after seg1 V (Proc.devRef .tc main_arg7) = V (Proc.devRef .tc main_arg7) := by host_kept seg1
theorem seg1_arg8 : after seg1 V (Proc.devRef .tc main_arg8) = V (Proc.devRef .tc main_arg8) := by host_kept seg1
theorem seg1_arg9 : after seg1 V (Proc.devRef .tc main_arg9) = V (Proc.devRef .tc main_arg9) := by host_kept seg1

/-! ## Stretch 2 -/

set_option maxRecDepth 8192 in
set_option maxHeartbeats 2000000 in
/-- The layer of the previous output. -/
theorem seg2_out : after seg2 V (Proc.devRef .tc main_v32)
    = layer (V (Proc.devRef .tc main_v18)) (agg128 (V (Proc.devRef .tc main_v1)) (V (Proc.devRef .tc main_v3)) (V (Proc.devRef .tc main_v18))) (V (Proc.devRef .tc main_arg5)) := by
  after_results_simp
  exact later_host (V (Proc.devRef .tc main_v18)) (agg128 (V (Proc.devRef .tc main_v1)) (V (Proc.devRef .tc main_v3)) (V (Proc.devRef .tc main_v18))) (V (Proc.devRef .tc main_arg5))

theorem seg2_v1 : after seg2 V (Proc.devRef .tc main_v1) = V (Proc.devRef .tc main_v1) := by host_kept seg2
theorem seg2_v3 : after seg2 V (Proc.devRef .tc main_v3) = V (Proc.devRef .tc main_v3) := by host_kept seg2
theorem seg2_arg6 : after seg2 V (Proc.devRef .tc main_arg6) = V (Proc.devRef .tc main_arg6) := by host_kept seg2
theorem seg2_arg7 : after seg2 V (Proc.devRef .tc main_arg7) = V (Proc.devRef .tc main_arg7) := by host_kept seg2
theorem seg2_arg8 : after seg2 V (Proc.devRef .tc main_arg8) = V (Proc.devRef .tc main_arg8) := by host_kept seg2
theorem seg2_arg9 : after seg2 V (Proc.devRef .tc main_arg9) = V (Proc.devRef .tc main_arg9) := by host_kept seg2

/-! ## Stretch 3 -/

set_option maxRecDepth 8192 in
set_option maxHeartbeats 2000000 in
/-- The layer of the previous output. -/
theorem seg3_out : after seg3 V (Proc.devRef .tc main_v46)
    = layer (V (Proc.devRef .tc main_v32)) (agg128 (V (Proc.devRef .tc main_v1)) (V (Proc.devRef .tc main_v3)) (V (Proc.devRef .tc main_v32))) (V (Proc.devRef .tc main_arg6)) := by
  after_results_simp
  exact later_host (V (Proc.devRef .tc main_v32)) (agg128 (V (Proc.devRef .tc main_v1)) (V (Proc.devRef .tc main_v3)) (V (Proc.devRef .tc main_v32))) (V (Proc.devRef .tc main_arg6))

theorem seg3_v1 : after seg3 V (Proc.devRef .tc main_v1) = V (Proc.devRef .tc main_v1) := by host_kept seg3
theorem seg3_v3 : after seg3 V (Proc.devRef .tc main_v3) = V (Proc.devRef .tc main_v3) := by host_kept seg3
theorem seg3_arg7 : after seg3 V (Proc.devRef .tc main_arg7) = V (Proc.devRef .tc main_arg7) := by host_kept seg3
theorem seg3_arg8 : after seg3 V (Proc.devRef .tc main_arg8) = V (Proc.devRef .tc main_arg8) := by host_kept seg3
theorem seg3_arg9 : after seg3 V (Proc.devRef .tc main_arg9) = V (Proc.devRef .tc main_arg9) := by host_kept seg3

/-! ## Stretch 4 -/

set_option maxRecDepth 8192 in
set_option maxHeartbeats 2000000 in
/-- The layer of the previous output. -/
theorem seg4_out : after seg4 V (Proc.devRef .tc main_v60)
    = layer (V (Proc.devRef .tc main_v46)) (agg128 (V (Proc.devRef .tc main_v1)) (V (Proc.devRef .tc main_v3)) (V (Proc.devRef .tc main_v46))) (V (Proc.devRef .tc main_arg7)) := by
  after_results_simp
  exact later_host (V (Proc.devRef .tc main_v46)) (agg128 (V (Proc.devRef .tc main_v1)) (V (Proc.devRef .tc main_v3)) (V (Proc.devRef .tc main_v46))) (V (Proc.devRef .tc main_arg7))

theorem seg4_v1 : after seg4 V (Proc.devRef .tc main_v1) = V (Proc.devRef .tc main_v1) := by host_kept seg4
theorem seg4_v3 : after seg4 V (Proc.devRef .tc main_v3) = V (Proc.devRef .tc main_v3) := by host_kept seg4
theorem seg4_arg8 : after seg4 V (Proc.devRef .tc main_arg8) = V (Proc.devRef .tc main_arg8) := by host_kept seg4
theorem seg4_arg9 : after seg4 V (Proc.devRef .tc main_arg9) = V (Proc.devRef .tc main_arg9) := by host_kept seg4

/-! ## Stretch 5 -/

set_option maxRecDepth 8192 in
set_option maxHeartbeats 2000000 in
/-- The layer of the previous output. -/
theorem seg5_out : after seg5 V (Proc.devRef .tc main_v74)
    = layer (V (Proc.devRef .tc main_v60)) (agg128 (V (Proc.devRef .tc main_v1)) (V (Proc.devRef .tc main_v3)) (V (Proc.devRef .tc main_v60))) (V (Proc.devRef .tc main_arg8)) := by
  after_results_simp
  exact later_host (V (Proc.devRef .tc main_v60)) (agg128 (V (Proc.devRef .tc main_v1)) (V (Proc.devRef .tc main_v3)) (V (Proc.devRef .tc main_v60))) (V (Proc.devRef .tc main_arg8))

theorem seg5_v1 : after seg5 V (Proc.devRef .tc main_v1) = V (Proc.devRef .tc main_v1) := by host_kept seg5
theorem seg5_v3 : after seg5 V (Proc.devRef .tc main_v3) = V (Proc.devRef .tc main_v3) := by host_kept seg5
theorem seg5_arg9 : after seg5 V (Proc.devRef .tc main_arg9) = V (Proc.devRef .tc main_arg9) := by host_kept seg5

/-! ## Stretch 6 -/

set_option maxRecDepth 8192 in
set_option maxHeartbeats 2000000 in
/-- The layer of the previous output. -/
theorem seg6_out : after seg6 V (Proc.devRef .tc main_v88)
    = layer (V (Proc.devRef .tc main_v74)) (agg128 (V (Proc.devRef .tc main_v1)) (V (Proc.devRef .tc main_v3)) (V (Proc.devRef .tc main_v74))) (V (Proc.devRef .tc main_arg9)) := by
  after_results_simp
  exact later_host (V (Proc.devRef .tc main_v74)) (agg128 (V (Proc.devRef .tc main_v1)) (V (Proc.devRef .tc main_v3)) (V (Proc.devRef .tc main_v74))) (V (Proc.devRef .tc main_arg9))

end Cert.GraphNet.Ref

end
-- ==== Proof.RefValue.lean ====
/-
  The reference program computes the network.

  The contents after the six stretches are followed in turn: after stretch 1 the first layer of the input, and after
  each later stretch the layer of the previous output, its neighbour sum taken over the edge table's sources and
  destinations (kept since stretch 1) and its weight matrix read from an argument no operation writes.  The result
  buffer ends at the network of the launch contents, and every argument ends unchanged.
-/
import proofs.«136489_j50732153701091_1_alg».proof.Proof.RefStretch

noncomputable section

namespace Cert.GraphNet.Ref

open Cert.ReferenceIdeal Cert.ReferenceIdeal.Gen Cert.ReferenceIdeal.ValueP Idealize.ShloMosaic Idealize.ShloMosaic.TcCoe Idealize.SL.Sem Idealize.ShloMosaic.StableHlo
open Cert.Kept

/-! ## Equal inputs give equal layers -/

theorem layer_congr {h h' a a' : FVec Ideal Nodes128 .f32} {W W' : FVec Ideal Mat128 .f32} (eh : h = h') (ea : a = a') (eW : W = W') :
    layer h a W = layer h' a' W' := by subst eh ea eW; rfl

theorem agg128_congr {s s' d d' : Vec Ideal S1600000 .i32} {h h' : Vec Ideal S100000x128 .f32} (es : s = s') (ed : d = d') (eh : h = h') :
    agg128 s d h = agg128 s' d' h' := by subst es ed eh; rfl

/-! ## The contents after each stretch -/

variable (m : (ℓ : Loc nD τ sig) → Buf (Elt Ideal) ℓ) (c : Dev nD)

/-- The contents after stretch 1, from the launch contents. -/
def R1 : Valuation τ sig (Elt Ideal) := after seg1 (launchContents m c)
/-- The contents after stretch 2. -/
def R2 : Valuation τ sig (Elt Ideal) := after seg2 (R1 m c)
/-- The contents after stretch 3. -/
def R3 : Valuation τ sig (Elt Ideal) := after seg3 (R2 m c)
/-- The contents after stretch 4. -/
def R4 : Valuation τ sig (Elt Ideal) := after seg4 (R3 m c)
/-- The contents after stretch 5. -/
def R5 : Valuation τ sig (Elt Ideal) := after seg5 (R4 m c)
/-- The contents after stretch 6: the contents after the whole program. -/
def R6 : Valuation τ sig (Elt Ideal) := after seg6 (R5 m c)

theorem after_ops_eq : after ops (launchContents m c) = R6 m c := after_ops (launchContents m c)

/-! ## The layers' outputs, from the launch contents -/

/-- The sources. -/
def S : Vec Ideal S1600000 .i32 := sources (m ((c.tc : Thread nD τ).loc main_arg1))
/-- The destinations. -/
def D : Vec Ideal S1600000 .i32 := destinations (m ((c.tc : Thread nD τ).loc main_arg1))
/-- The first layer's output. -/
def H1 : FVec Ideal Nodes128 .f32 :=
  firstLayer (m ((c.tc : Thread nD τ).loc main_arg0)) (agg48 (S m c) (D m c) (m ((c.tc : Thread nD τ).loc main_arg0))) (m ((c.tc : Thread nD τ).loc main_arg4)) (m ((c.tc : Thread nD τ).loc main_arg3))
/-- The second layer's output. -/
def H2 : FVec Ideal Nodes128 .f32 := layer (H1 m c) (agg128 (S m c) (D m c) (H1 m c)) (m ((c.tc : Thread nD τ).loc main_arg5))
/-- The third layer's output. -/
def H3 : FVec Ideal Nodes128 .f32 := layer (H2 m c) (agg128 (S m c) (D m c) (H2 m c)) (m ((c.tc : Thread nD τ).loc main_arg6))
/-- The fourth layer's output. -/
def H4 : FVec Ideal Nodes128 .f32 := layer (H3 m c) (agg128 (S m c) (D m c) (H3 m c)) (m ((c.tc : Thread nD τ).loc main_arg7))
/-- The fifth layer's output. -/
def H5 : FVec Ideal Nodes128 .f32 := layer (H4 m c) (agg128 (S m c) (D m c) (H4 m c)) (m ((c.tc : Thread nD τ).loc main_arg8))
/-- The sixth layer's output. -/
def H6 : FVec Ideal Nodes128 .f32 := layer (H5 m c) (agg128 (S m c) (D m c) (H5 m c)) (m ((c.tc : Thread nD τ).loc main_arg9))

/-- The sixth layer's output is the network. -/
theorem H6_eq : H6 m c
    = net (agg48 (sources (m ((c.tc : Thread nD τ).loc main_arg1))) (destinations (m ((c.tc : Thread nD τ).loc main_arg1))))
        (agg128 (sources (m ((c.tc : Thread nD τ).loc main_arg1))) (destinations (m ((c.tc : Thread nD τ).loc main_arg1))))
        (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) := rfl

/-! ## Stretch by stretch -/

theorem R1_s : R1 m c (Proc.devRef .tc main_v1) = S m c := seg1_src (launchContents m c)
theorem R1_d : R1 m c (Proc.devRef .tc main_v3) = D m c := seg1_dst (launchContents m c)
theorem R1_h : R1 m c (Proc.devRef .tc main_v18) = H1 m c := seg1_out (launchContents m c)
theorem R1_w5 : R1 m c (Proc.devRef .tc main_arg5) = (m ((c.tc : Thread nD τ).loc main_arg5)) := seg1_arg5 (launchContents m c)
theorem R1_w6 : R1 m c (Proc.devRef .tc main_arg6) = (m ((c.tc : Thread nD τ).loc main_arg6)) := seg1_arg6 (launchContents m c)
theorem R1_w7 : R1 m c (Proc.devRef .tc main_arg7) = (m ((c.tc : Thread nD τ).loc main_arg7)) := seg1_arg7 (launchContents m c)
theorem R1_w8 : R1 m c (Proc.devRef .tc main_arg8) = (m ((c.tc : Thread nD τ).loc main_arg8)) := seg1_arg8 (launchContents m c)
theorem R1_w9 : R1 m c (Proc.devRef .tc main_arg9) = (m ((c.tc : Thread nD τ).loc main_arg9)) := seg1_arg9 (launchContents m c)

theorem R2_h : R2 m c (Proc.devRef .tc main_v32) = H2 m c :=
  (seg2_out (R1 m c)).trans (layer_congr (R1_h m c) (agg128_congr (R1_s m c) (R1_d m c) (R1_h m c)) (R1_w5 m c))
theorem R2_s : R2 m c (Proc.devRef .tc main_v1) = S m c := (seg2_v1 (R1 m c)).trans (R1_s m c)
theorem R2_d : R2 m c (Proc.devRef .tc main_v3) = D m c := (seg2_v3 (R1 m c)).trans (R1_d m c)
theorem R2_w6 : R2 m c (Proc.devRef .tc main_arg6) = (m ((c.tc : Thread nD τ).loc main_arg6)) := (seg2_arg6 (R1 m c)).trans (R1_w6 m c)
theorem R2_w7 : R2 m c (Proc.devRef .tc main_arg7) = (m ((c.tc : Thread nD τ).loc main_arg7)) := (seg2_arg7 (R1 m c)).trans (R1_w7 m c)
theorem R2_w8 : R2 m c (Proc.devRef .tc main_arg8) = (m ((c.tc : Thread nD τ).loc main_arg8)) := (seg2_arg8 (R1 m c)).trans (R1_w8 m c)
theorem R2_w9 : R2 m c (Proc.devRef .tc main_arg9) = (m ((c.tc : Thread nD τ).loc main_arg9)) := (seg2_arg9 (R1 m c)).trans (R1_w9 m c)

theorem R3_h : R3 m c (Proc.devRef .tc main_v46) = H3 m c :=
  (seg3_out (R2 m c)).trans (layer_congr (R2_h m c) (agg128_congr (R2_s m c) (R2_d m c) (R2_h m c)) (R2_w6 m c))
theorem R3_s : R3 m c (Proc.devRef .tc main_v1) = S m c := (seg3_v1 (R2 m c)).trans (R2_s m c)
theorem R3_d : R3 m c (Proc.devRef .tc main_v3) = D m c := (seg3_v3 (R2 m c)).trans (R2_d m c)
theorem R3_w7 : R3 m c (Proc.devRef .tc main_arg7) = (m ((c.tc : Thread nD τ).loc main_arg7)) := (seg3_arg7 (R2 m c)).trans (R2_w7 m c)
theorem R3_w8 : R3 m c (Proc.devRef .tc main_arg8) = (m ((c.tc : Thread nD τ).loc main_arg8)) := (seg3_arg8 (R2 m c)).trans (R2_w8 m c)
theorem R3_w9 : R3 m c (Proc.devRef .tc main_arg9) = (m ((c.tc : Thread nD τ).loc main_arg9)) := (seg3_arg9 (R2 m c)).trans (R2_w9 m c)

theorem R4_h : R4 m c (Proc.devRef .tc main_v60) = H4 m c :=
  (seg4_out (R3 m c)).trans (layer_congr (R3_h m c) (agg128_congr (R3_s m c) (R3_d m c) (R3_h m c)) (R3_w7 m c))
theorem R4_s : R4 m c (Proc.devRef .tc main_v1) = S m c := (seg4_v1 (R3 m c)).trans (R3_s m c)
theorem R4_d : R4 m c (Proc.devRef .tc main_v3) = D m c := (seg4_v3 (R3 m c)).trans (R3_d m c)
theorem R4_w8 : R4 m c (Proc.devRef .tc main_arg8) = (m ((c.tc : Thread nD τ).loc main_arg8)) := (seg4_arg8 (R3 m c)).trans (R3_w8 m c)
theorem R4_w9 : R4 m c (Proc.devRef .tc main_arg9) = (m ((c.tc : Thread nD τ).loc main_arg9)) := (seg4_arg9 (R3 m c)).trans (R3_w9 m c)

theorem R5_h : R5 m c (Proc.devRef .tc main_v74) = H5 m c :=
  (seg5_out (R4 m c)).trans (layer_congr (R4_h m c) (agg128_congr (R4_s m c) (R4_d m c) (R4_h m c)) (R4_w8 m c))
theorem R5_s : R5 m c (Proc.devRef .tc main_v1) = S m c := (seg5_v1 (R4 m c)).trans (R4_s m c)
theorem R5_d : R5 m c (Proc.devRef .tc main_v3) = D m c := (seg5_v3 (R4 m c)).trans (R4_d m c)
theorem R5_w9 : R5 m c (Proc.devRef .tc main_arg9) = (m ((c.tc : Thread nD τ).loc main_arg9)) := (seg5_arg9 (R4 m c)).trans (R4_w9 m c)

theorem R6_h : R6 m c (Proc.devRef .tc main_v88) = H6 m c :=
  (seg6_out (R5 m c)).trans (layer_congr (R5_h m c) (agg128_congr (R5_s m c) (R5_d m c) (R5_h m c)) (R5_w9 m c))

/-! ## The arguments are kept -/

set_option maxRecDepth 8192 in
theorem ops_arg0 (V : Valuation τ sig (Elt Ideal)) : after ops V (Proc.devRef .tc main_arg0) = V (Proc.devRef .tc main_arg0) := by host_kept ops
set_option maxRecDepth 8192 in
theorem ops_arg1 (V : Valuation τ sig (Elt Ideal)) : after ops V (Proc.devRef .tc main_arg1) = V (Proc.devRef .tc main_arg1) := by host_kept ops
set_option maxRecDepth 8192 in
theorem ops_arg2 (V : Valuation τ sig (Elt Ideal)) : after ops V (Proc.devRef .tc main_arg2) = V (Proc.devRef .tc main_arg2) := by host_kept ops
set_option maxRecDepth 8192 in
theorem ops_arg3 (V : Valuation τ sig (Elt Ideal)) : after ops V (Proc.devRef .tc main_arg3) = V (Proc.devRef .tc main_arg3) := by host_kept ops
set_option maxRecDepth 8192 in
theorem ops_arg4 (V : Valuation τ sig (Elt Ideal)) : after ops V (Proc.devRef .tc main_arg4) = V (Proc.devRef .tc main_arg4) := by host_kept ops
set_option maxRecDepth 8192 in
theorem ops_arg5 (V : Valuation τ sig (Elt Ideal)) : after ops V (Proc.devRef .tc main_arg5) = V (Proc.devRef .tc main_arg5) := by host_kept ops
set_option maxRecDepth 8192 in
theorem ops_arg6 (V : Valuation τ sig (Elt Ideal)) : after ops V (Proc.devRef .tc main_arg6) = V (Proc.devRef .tc main_arg6) := by host_kept ops
set_option maxRecDepth 8192 in
theorem ops_arg7 (V : Valuation τ sig (Elt Ideal)) : after ops V (Proc.devRef .tc main_arg7) = V (Proc.devRef .tc main_arg7) := by host_kept ops
set_option maxRecDepth 8192 in
theorem ops_arg8 (V : Valuation τ sig (Elt Ideal)) : after ops V (Proc.devRef .tc main_arg8) = V (Proc.devRef .tc main_arg8) := by host_kept ops
set_option maxRecDepth 8192 in
theorem ops_arg9 (V : Valuation τ sig (Elt Ideal)) : after ops V (Proc.devRef .tc main_arg9) = V (Proc.devRef .tc main_arg9) := by host_kept ops

/-! ## The run -/

/-- On every device, from any memory with zero counters: every weakly fair execution of the reference program terminates
    with the result buffer at the network of the launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v88)
        = net (agg48 (sources (m ((c.tc : Thread nD τ).loc main_arg1))) (destinations (m ((c.tc : Thread nD τ).loc main_arg1))))
            (agg128 (sources (m ((c.tc : Thread nD τ).loc main_arg1))) (destinations (m ((c.tc : Thread nD τ).loc main_arg1))))
            (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))
            (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v88).trans ((congrFun (after_ops_eq m c) _).trans ((R6_h m c).trans (H6_eq m c))),
      (h c main_arg0).trans (ops_arg0 (launchContents m c)),
      (h c main_arg1).trans (ops_arg1 (launchContents m c)),
      (h c main_arg2).trans (ops_arg2 (launchContents m c)),
      (h c main_arg3).trans (ops_arg3 (launchContents m c)),
      (h c main_arg4).trans (ops_arg4 (launchContents m c)),
      (h c main_arg5).trans (ops_arg5 (launchContents m c)),
      (h c main_arg6).trans (ops_arg6 (launchContents m c)),
      (h c main_arg7).trans (ops_arg7 (launchContents m c)),
      (h c main_arg8).trans (ops_arg8 (launchContents m c)),
      (h c main_arg9).trans (ops_arg9 (launchContents m c))⟩)
    (ValueP.run m ρ)

end Cert.GraphNet.Ref

end
-- ==== Proof.lean ====
/-
  A six-layer graph network, the kernel's program against its jnp reference, at the ideal values.

  Both programs send node features `h` to `max ((h + a) · W) 0 + r`, six times, where `a` is the neighbour sum of `h`
  (a gather at the edges' sources followed by a scatter-add at their destinations: the same host operations in both
  programs, carried as one function and never opened), and the residual `r` is `x · Wd` in the first layer and `h`
  itself afterwards.  The kernel's program computes each layer in a device region, 5000 rows at a time, with the
  products taken after a narrowing to bf16 that is the identity on extended reals; the reference computes it with the
  host's product over all 100000 rows at once.  Read index by index both are the same plain sums (Spec.lean), so the
  two results are one function of the arguments, `net`; no law of arithmetic beyond that is used, and the finiteness
  precondition is never opened.  No operation was rewritten by the idealization, so that claim is trivial.
-/
import proofs.«136489_j50732153701091_1_alg».proof.Defs
import proofs.«136489_j50732153701091_1_alg».proof.Proof.Gen.Kernel
import proofs.«136489_j50732153701091_1_alg».proof.Proof.Gen.Kernel.Frame
import proofs.«136489_j50732153701091_1_alg».proof.Proof.Gen.KernelIdeal
import proofs.«136489_j50732153701091_1_alg».proof.Proof.Gen.KernelIdeal.Frame
import proofs.«136489_j50732153701091_1_alg».proof.Proof.Gen.ReferenceIdeal
import proofs.«136489_j50732153701091_1_alg».proof.Proof.Gen.Pre_finite_inputs
import proofs.«136489_j50732153701091_1_alg».proof.Proof.KernelRun
import proofs.«136489_j50732153701091_1_alg».proof.Proof.KernelValue
import proofs.«136489_j50732153701091_1_alg».proof.Proof.RefValue
import Idealize.ShloMosaic.Adequacy
import Idealize.ShloMosaic.Init

noncomputable section

namespace Cert.Proof

open Idealize.ShloMosaic Idealize.SL.Sem

/-- The word-level program runs and leaves its arguments alone. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference's run, with its result forgotten. -/
theorem frame_reference : Cert.frame_ReferenceIdeal := fun m ρ _ =>
  (θ_run Cert.ReferenceIdeal.defs _ _).mono (fun _ h c => (h c).2) (Cert.GraphNet.Ref.run m ρ)

/-- The idealization rewrote nothing. -/
theorem preserves : Cert.preserves_Kernel_KernelIdeal := trivial

/-- Both programs end with the network `net` of the arguments in their result buffer: the kernel's by the fold through
    its six regions, the reference's by its run read layer by layer; the arguments agree, so the two are one array. -/
theorem algebraic : Cert.algebraic_KernelIdeal_ReferenceIdeal := by
  intro m ρ m' ρ' _ hagree
  refine ⟨fun c => Cert.GraphNet.Kernel.feat6 m c, ?_, ?_⟩
  · exact (θ_run Cert.KernelIdeal.defs _ _).mono
      (fun r h c => ⟨(h c).1.trans (Cert.GraphNet.Kernel.value6 m ρ c), (h c).2⟩)
      (Cert.GraphNet.KernelRun.run_result (F := Ideal) m ρ)
  · refine (θ_run Cert.ReferenceIdeal.defs _ _).mono (fun r h c => ⟨(h c).1.trans ?_, (h c).2⟩)
      (Cert.GraphNet.Ref.run m' ρ')
    obtain ⟨a0, a1, a2, a3, a4, a5, a6, a7, a8, a9⟩ := hagree c
    show _ = Cert.GraphNet.Kernel.feat6 m c
    rw [Cert.GraphNet.Kernel.feat6_eq, a0, a1, a3, a4, a5, a6, a7, a8, a9]
    rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
